-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x199x64 : Shape := ⟨3, ![4096, 199, 64]⟩
abbrev S4096x64 : Shape := ⟨2, ![4096, 64]⟩
abbrev S64x64 : Shape := ⟨2, ![64, 64]⟩
abbrev S64 : Shape := ⟨1, ![64]⟩
abbrev S200x64 : Shape := ⟨2, ![200, 64]⟩
abbrev S_ : Shape := ⟨0, ![]⟩

class Facts : Prop where
  bcast_S_S4096x199x64 : S_.BroadcastsInDim S4096x199x64 (![] : Fin 0 → Fin S4096x199x64.rank)
  reducesTo_S4096x199x64_S_d0_1_2 : S4096x199x64.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S200x64 : S_.BroadcastsInDim S200x64 (![] : Fin 0 → Fin S200x64.rank)
  reducesTo_S200x64_S_d0_1 : S200x64.ReducesTo [0, 1] S_

variable [Facts]

def fn_part1 {F : FTy → Type} [FloatOps F] (main_arg4 : FVec F S200x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S200x64 .f32 := Host.absf main_arg4
  let main_cst_6 : FVec F S_ .f32 := constant S_ .f32 0x7F800000#32
  let main_v20 : FVec F S200x64 .f32 := broadcastInDim S200x64 ![] bcast_S_S200x64 main_cst_6
  let main_v21 : IVec S200x64 1 := cmpf .olt main_v19 main_v20
  let main_c_7 : IVec S_ 1 := constantI S_ 1 1#1
  let main_v22 : IVec S_ 1 := (fun x v => Host.reduce IntOp.andi x v reducesTo_S200x64_S_d0_1 h_S_) main_v21 main_c_7
  let main_v23 : IVec S_ 1 := andi main_v18 main_v22
  main_v23

def fn {F : FTy → Type} [FloatOps F] (main_arg0 : FVec F S4096x199x64 .f32) (main_arg1 : FVec F S4096x64 .f32) (main_arg2 : FVec F S64x64 .f32) (main_arg3 : FVec F S64 .f32) (main_arg4 : FVec F S200x64 .f32) : IVec S_ 1 :=
  let main_v0 : FVec F S4096x199x64 .f32 := Host.absf main_arg0
  let main_cst : FVec F S_ .f32 := constant S_ .f32 0x7F800000#32
  let main_v1 : FVec F S4096x199x64 .f32 := broadcastInDim S4096x199x64 ![] bcast_S_S4096x199x64 main_cst
  let main_v2 : IVec S4096x199x64 1 := cmpf .olt main_v0 main_v1
  let main_c : IVec S_ 1 := constantI S_ 1 1#1
  let main_v3 : IVec S_ 1 := (fun x v => Host.reduce IntOp.andi x v reducesTo_S4096x199x64_S_d0_1_2 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S4096x199x64 : Shape := ⟨3, ![4096, 199, 64]⟩
abbrev S4096x64 : Shape := ⟨2, ![4096, 64]⟩
abbrev S64x64 : Shape := ⟨2, ![64, 64]⟩
abbrev S64 : Shape := ⟨1, ![64]⟩
abbrev S200x64 : Shape := ⟨2, ![200, 64]⟩
abbrev S199x64x4096 : Shape := ⟨3, ![199, 64, 4096]⟩
abbrev S64x4096 : Shape := ⟨2, ![64, 4096]⟩
abbrev S199x64 : Shape := ⟨2, ![199, 64]⟩
abbrev S199x64x1 : Shape := ⟨3, ![199, 64, 1]⟩
abbrev S1x64 : Shape := ⟨2, ![1, 64]⟩
abbrev S64x1 : Shape := ⟨2, ![64, 1]⟩
abbrev S64x4x16 : Shape := ⟨3, ![64, 4, 16]⟩
abbrev S4x64x16 : Shape := ⟨3, ![4, 64, 16]⟩
abbrev S200x64x4096 : Shape := ⟨3, ![200, 64, 4096]⟩
abbrev S199x16x512 : Shape := ⟨3, ![199, 16, 512]⟩
abbrev S200x16x512 : Shape := ⟨3, ![200, 16, 512]⟩
abbrev S1x64x16 : Shape := ⟨3, ![1, 64, 16]⟩
abbrev S64x16 : Shape := ⟨2, ![64, 16]⟩
abbrev S64x512 : Shape := ⟨2, ![64, 512]⟩
abbrev S16x512 : Shape := ⟨2, ![16, 512]⟩
abbrev S16x1 : Shape := ⟨2, ![16, 1]⟩
abbrev S1x16x512 : Shape := ⟨3, ![1, 16, 512]⟩
abbrev S199x16x1 : Shape := ⟨3, ![199, 16, 1]⟩
abbrev S4096x200x64 : Shape := ⟨3, ![4096, 200, 64]⟩

abbrev nBuf : Space → Nat
  | .hbm => 17
  | .vmem => 8
  | .smem => 0
  | _ => 0

abbrev bufTy : (tb : Table) → Fin (tcTables nBuf tb) → BufTy
  | .hbm, ⟨0, _⟩ => ⟨S4096x199x64, .f32⟩
  | .hbm, ⟨1, _⟩ => ⟨S4096x64, .f32⟩
  | .hbm, ⟨2, _⟩ => ⟨S64x64, .f32⟩
  | .hbm, ⟨3, _⟩ => ⟨S64, .f32⟩
  | .hbm, ⟨4, _⟩ => ⟨S200x64, .f32⟩
  | .hbm, ⟨5, _⟩ => ⟨S199x64x4096, .f32⟩
  | .hbm, ⟨6, _⟩ => ⟨S64x4096, .f32⟩
  | .hbm, ⟨7, _⟩ => ⟨S199x64, .f32⟩
  | .hbm, ⟨8, _⟩ => ⟨S199x64x1, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S64x1, .f32⟩
  | .hbm, ⟨13, _⟩ => ⟨S64x4x16, .f32⟩
  | .hbm, ⟨14, _⟩ => ⟨S4x64x16, .f32⟩
  | .hbm, ⟨15, _⟩ => ⟨S200x64x4096, .f32⟩
  | .hbm, ⟨16, _⟩ => ⟨S4096x200x64, .f32⟩
  | .local _ .vmem, ⟨0, _⟩ => ⟨S199x16x512, .f32⟩
  | .local _ .vmem, ⟨1, _⟩ => ⟨S199x16x512, .f32⟩
  | .local _ .vmem, ⟨2, _⟩ => ⟨S64x4096, .f32⟩
  | .local _ .vmem, ⟨3, _⟩ => ⟨S4x64x16, .f32⟩
  | .local _ .vmem, ⟨4, _⟩ => ⟨S64x1, .f32⟩
  | .local _ .vmem, ⟨5, _⟩ => ⟨S199x64x1, .f32⟩
  | .local _ .vmem, ⟨6, _⟩ => ⟨S200x16x512, .f32⟩
  | .local _ .vmem, ⟨7, _⟩ => ⟨S200x16x512, .f32⟩
  | _, _ => ⟨S4096x199x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg1 : BitVec 32 := BitVec.ofNat 32 (i 1).val
  let v0 : Index := Scalar.indexCast arg1
  let c0 : Index := 0#32
  let c0_0 : Index := 0#32
  ![v0.toNat, 0, 0]
def k0_off2 (i : grid0.Coords) : Fin 2 → Nat :=
  let c0_1 : Index := 0#32
  let arg0 : BitVec 32 := BitVec.ofNat 32 (i 0).val
  let c512_i32 : BitVec 32 := 512#32
  let v3 : BitVec 32 := Scalar.muli arg0 c512_i32
  let v4 : Index := Scalar.indexCast v3
  ![0, v4.toNat]
def k0_off3 (i : grid0.Coords) : Fin 2 → Nat :=
  let arg1 : BitVec 32 := BitVec.ofNat 32 (i 1).val
  let c16_i32 : BitVec 32 := 16#32
  let v8 : BitVec 32 := Scalar.muli arg1 c16_i32
  let v9 : Index := Scalar.indexCast v8
  let c0_2 : Index := 0#32
  ![v9.toNat, 0]
def k0_off4 (i : grid0.Coords) : Fin 3 → Nat :=
  let c0_10 : Index := 0#32
  let arg1 : BitVec 32 := BitVec.ofNat 32 (i 1).val
  let c16_i32_9 : BitVec 32 := 16#32
  let v19 : BitVec 32 := Scalar.muli arg1 c16_i32_9
  let v20 : Index := Scalar.indexCast v19
  let c0_11 : Index := 0#32
  ![0, v20.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S199x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S199x64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S200x16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S4096x199x64_S199x64x4096_1_2_0 : S4096x199x64.Transposes [1, 2, 0] S199x64x4096
  transposes_S4096x64_S64x4096_1_0 : S4096x64.Transposes [1, 0] S64x4096
  slices_S200x64_S199x64_1_0 : S200x64.Slices ![1, 0] S199x64
  shapeCasts_S199x64_S199x64x1 : S199x64.ShapeCasts S199x64x1
  slices_S200x64_S1x64_0_0 : S200x64.Slices ![0, 0] S1x64
  shapeCasts_S1x64_S64 : S1x64.ShapeCasts S64
  shapeCasts_S64_S64x1 : S64.ShapeCasts S64x1
  shapeCasts_S64x64_S64x4x16 : S64x64.ShapeCasts S64x4x16
  transposes_S64x4x16_S4x64x16_1_0_2 : S64x4x16.Transposes [1, 0, 2] S4x64x16
  h_S1x64x16 : 0 < S1x64x16.numel
  shapeCasts_S1x64x16_S64x16 : S1x64x16.ShapeCasts S64x16
  h_S64x512 : 0 < S64x512.numel
  shapeCasts_S64x512_S64x512 : S64x512.ShapeCasts S64x512
  h_S16x1 : 0 < S16x1.numel
  shapeCasts_S16x1_S16x1 : S16x1.ShapeCasts S16x1
  broadcasts_S16x1_S16x512 : S16x1.Broadcasts S16x512
  inb_S200x16x512_S1x16x512_0_0_0 : ∀ a, (![0, 0, 0] : Fin 3 → Nat) a + S1x16x512.size a ≤ S200x16x512.size a
  h_S1x16x512 : 0 < S1x16x512.numel
  shapeCasts_S1x16x512_S16x512 : S1x16x512.ShapeCasts S16x512
  shapeCasts_S16x512_S1x16x512 : S16x512.ShapeCasts S1x16x512
  inb_S199x16x512_S199x16x512_0_0_0 : ∀ a, (![0, 0, 0] : Fin 3 → Nat) a + S199x16x512.size a ≤ S199x16x512.size a
  h_S199x16x512 : 0 < S199x16x512.numel
  shapeCasts_S199x16x512_S199x16x512 : S199x16x512.ShapeCasts S199x16x512
  h_S199x16x1 : 0 < S199x16x1.numel
  shapeCasts_S199x16x1_S199x16x1 : S199x16x1.ShapeCasts S199x16x1
  broadcasts_S199x16x1_S199x16x512 : S199x16x1.Broadcasts S199x16x512
  inb_S200x16x512_S199x16x512_1_0_0 : ∀ a, (![1, 0, 0] : Fin 3 → Nat) a + S199x16x512.size a ≤ S200x16x512.size a
  transposes_S200x64x4096_S4096x200x64_2_0_1 : S200x64x4096.Transposes [2, 0, 1] S4096x200x64
  dot_S64x16_S64x512_S16x512_0_0_1_1_n_n_wf : DotDims.WF S64x16 S64x512 S16x512 [0] [0] [1] [1] [] []
  hrank0 : 0 < grid0.rank
  k0_off1_inb : ∀ i : grid0.Coords, ∀ a, (k0_off1 i) a + S1x64x16.size a ≤ S4x64x16.size a
  k0_off2_inb : ∀ i : grid0.Coords, ∀ a, (k0_off2 i) a + S64x512.size a ≤ S64x4096.size a
  k0_off3_inb : ∀ i : grid0.Coords, ∀ a, (k0_off3 i) a + S16x1.size a ≤ S64x1.size a
  k0_off4_inb : ∀ i : grid0.Coords, ∀ a, (k0_off4 i) a + S199x16x1.size a ≤ S199x64x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S199x16x512.size a ≤ S199x64x4096.size a
  hwx0_0 : ∀ i : grid0.Coords, EltTy.bits .f32 = 32 ∨ (Rect.block (s := S199x64x4096) S199x16x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64x16.size a ≤ S4x64x16.size a
  hwx0_2 : ∀ i : grid0.Coords, EltTy.bits .f32 = 32 ∨ (Rect.block (s := S4x64x16) S4x64x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S199x64x1.size a ≤ S199x64x1.size a
  hwx0_4 : ∀ i : grid0.Coords, EltTy.bits .f32 = 32 ∨ (Rect.block (s := S199x64x1) S199x64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x16x512.size a ≤ S200x64x4096.size a
  hwx0_5 : ∀ i : grid0.Coords, EltTy.bits .f32 = 32 ∨ (Rect.block (s := S200x64x4096) S200x16x512.size (cc0_transform_5 i) (hinb0_5 i)).WholeWords (EltTy.packing .f32)

variable [Facts₀]

def dot_S64x16_S64x512_S16x512_0_0_1_1_n_n : DotDims S64x16 S64x512 S16x512 where
  lhsContracting := [0]
  rhsContracting := [0]
  lhsNonContracting := [1]
  rhsNonContracting := [1]
  lhsBatch := []
  rhsBatch := []
  wf := dot_S64x16_S64x512_S16x512_0_0_1_1_n_n_wf

abbrev win0_0 : Pipeline.Window sig grid0 :=
  Pipeline.Window.ofSpec (Memref.whole main_v0) S199x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S4x64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S199x64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S200x16x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x199x64 : Shape := ⟨3, ![4096, 199, 64]⟩
abbrev S4096x64 : Shape := ⟨2, ![4096, 64]⟩
abbrev S64x64 : Shape := ⟨2, ![64, 64]⟩
abbrev S64 : Shape := ⟨1, ![64]⟩
abbrev S200x64 : Shape := ⟨2, ![200, 64]⟩
abbrev S1x64 : Shape := ⟨2, ![1, 64]⟩
abbrev S4096x1x64 : Shape := ⟨3, ![4096, 1, 64]⟩
abbrev S4096x200x64 : Shape := ⟨3, ![4096, 200, 64]⟩
abbrev S200 : Shape := ⟨1, ![200]⟩
abbrev S_ : Shape := ⟨0, ![]⟩
abbrev S200x1 : Shape := ⟨2, ![200, 1]⟩
abbrev S1 : Shape := ⟨1, ![1]⟩
abbrev S1x1 : Shape := ⟨2, ![1, 1]⟩
abbrev S1x200x64 : Shape := ⟨3, ![1, 200, 64]⟩

abbrev nBuf : Space → Nat
  | .hbm => 38
  | .vmem => 0
  | .smem => 0
  | _ => 0

abbrev bufTy : (tb : Table) → Fin (tcTables nBuf tb) → BufTy
  | .hbm, ⟨0, _⟩ => ⟨S4096x199x64, .f32⟩
  | .hbm, ⟨1, _⟩ => ⟨S4096x64, .f32⟩
  | .hbm, ⟨2, _⟩ => ⟨S64x64, .f32⟩
  | .hbm, ⟨3, _⟩ => ⟨S64, .f32⟩
  | .hbm, ⟨4, _⟩ => ⟨S200x64, .f32⟩
  | .hbm, ⟨5, _⟩ => ⟨S4096x64, .f32⟩
  | .hbm, ⟨6, _⟩ => ⟨S1x64, .f32⟩
  | .hbm, ⟨7, _⟩ => ⟨S4096x64, .f32⟩
  | .hbm, ⟨8, _⟩ => ⟨S4096x64, .f32⟩
  | .hbm, ⟨9, _⟩ => ⟨S4096x1x64, .f32⟩
  | .hbm, ⟨10, _⟩ => ⟨S4096x200x64, .f32⟩
  | .hbm, ⟨11, _⟩ => ⟨S200, .i32⟩
  | .hbm, ⟨12, _⟩ => ⟨S_, .i32⟩
  | .hbm, ⟨13, _⟩ => ⟨S200, .i32⟩
  | .hbm, ⟨14, _⟩ => ⟨S200, .i1⟩
  | .hbm, ⟨15, _⟩ => ⟨S_, .i32⟩
  | .hbm, ⟨16, _⟩ => ⟨S200, .i32⟩
  | .hbm, ⟨17, _⟩ => ⟨S200, .i32⟩
  | .hbm, ⟨18, _⟩ => ⟨S200, .i32⟩
  | .hbm, ⟨19, _⟩ => ⟨S200x1, .i32⟩
  | .hbm, ⟨20, _⟩ => ⟨S1, .i32⟩
  | .hbm, ⟨21, _⟩ => ⟨S_, .i32⟩
  | .hbm, ⟨22, _⟩ => ⟨S200x1, .i32⟩
  | .hbm, ⟨23, _⟩ => ⟨S200x1, .i1⟩
  | .hbm, ⟨24, _⟩ => ⟨S1x1, .i32⟩
  | .hbm, ⟨25, _⟩ => ⟨S200x1, .i32⟩
  | .hbm, ⟨26, _⟩ => ⟨S200x1, .i1⟩
  | .hbm, ⟨27, _⟩ => ⟨S200x1, .i1⟩
  | .hbm, ⟨28, _⟩ => ⟨S_, .i1⟩
  | .hbm, ⟨29, _⟩ => ⟨S200, .i1⟩
  | .hbm, ⟨30, _⟩ => ⟨S200x64, .f32⟩
  | .hbm, ⟨31, _⟩ => ⟨S200x64, .i1⟩
  | .hbm, ⟨32, _⟩ => ⟨S_, .f32⟩
  | .hbm, ⟨33, _⟩ => ⟨S200x64, .f32⟩
  | .hbm, ⟨34, _⟩ => ⟨S200x64, .f32⟩
  | .hbm, ⟨35, _⟩ => ⟨S1x200x64, .f32⟩
  | .hbm, ⟨36, _⟩ => ⟨S4096x200x64, .f32⟩
  | .hbm, ⟨37, _⟩ => ⟨S4096x200x64, .f32⟩
  | _, _ => ⟨S4096x199x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S4096x64_S4096x1x64_0_2 : S4096x64.BroadcastsInDim S4096x1x64 (![0, 2] : Fin 2 → Fin S4096x1x64.rank)
  concatenates_S4096x1x64_S4096x199x64_S4096x200x64_d1 : Shape.Concatenates [S4096x1x64, S4096x199x64] S4096x200x64 1
  bcast_S_S200 : S_.BroadcastsInDim S200 (![] : Fin 0 → Fin S200.rank)
  bcast_S200_S200x1_0 : S200.BroadcastsInDim S200x1 (![0] : Fin 1 → Fin S200x1.rank)
  bcast_S_S200x1 : S_.BroadcastsInDim S200x1 (![] : Fin 0 → Fin S200x1.rank)
  bcast_S1_S1x1_1 : S1.BroadcastsInDim S1x1 (![1] : Fin 1 → Fin S1x1.rank)
  bcast_S1x1_S200x1_0_1 : S1x1.BroadcastsInDim S200x1 (![0, 1] : Fin 2 → Fin S200x1.rank)
  reducesTo_S200x1_S200_d1 : S200x1.ReducesTo [1] S200
  h_S_ : 0 < S_.numel
  bcast_S200_S200x64_0 : S200.BroadcastsInDim S200x64 (![0] : Fin 1 → Fin S200x64.rank)
  bcast_S_S200x64 : S_.BroadcastsInDim S200x64 (![] : Fin 0 → Fin S200x64.rank)
  bcast_S200x64_S1x200x64_1_2 : S200x64.BroadcastsInDim S1x200x64 (![1, 2] : Fin 2 → Fin S1x200x64.rank)
  bcast_S1x200x64_S4096x200x64_0_1_2 : S1x200x64.BroadcastsInDim S4096x200x64 (![0, 1, 2] : Fin 3 → Fin S4096x200x64.rank)
  dot_S4096x64_S64x64_S4096x64_1_0_0_1_n_n_wf : DotDims.WF S4096x64 S64x64 S4096x64 [1] [0] [0] [1] [] []
  gather_S200x64_S200x1_S200x64_1_0_n_n_0_1_164_wf : GatherDims.WF S200x64 S200x1 S200x64 [1] [0] [] [0] [] 1 ![1, 64]

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def gather_S200x64_S200x1_S200x64_1_0_n_n_0_1_164 : GatherDims S200x64 S200x1 S200x64 where
  offsetDims := [1]
  collapsedSliceDims := [0]
  operandBatchingDims := []
  startIndicesBatchingDims := []
  startIndexMap := [0]
  indexVectorDim := 1
  sliceSizes := ![1, 64]
  wf := gather_S200x64_S200x1_S200x64_1_0_n_n_0_1_164_wf

class Facts : Prop extends Facts₀ where

variable [Facts]
-- ==== Proof.LibMatmulTN.lean ====
/-
  A matrix product with the left factor transposed, read at an entry.

  At the exact instance a `tpu.matmul` into the zero accumulator is, at each output index, the sum over the dot's
  contraction index of the products of the operands at the indices the dimension numbers name. When BOTH operands are
  contracted on their axis 0 — a K × M matrix against a K × N matrix, one contracted axis, no batch axis: the product
  `aᵀ · w` — the operand indices at output (y, j) and contraction coordinate k are (k, y) and (k, j), and the
  contraction index is its one coordinate; so the entry is `Σₖ a[k, y] · w[k, j]` over `Fin K`. The four
  coordinate facts are hypotheses: for a concrete record each is one line (two by the record's single-axis lemmas,
  two by unfolding the index function at a decided membership).
-/
import Idealize.ShloMosaic.PureOps.Ideal.Laws
import Idealize.ShloMosaic.Lib.ValueIdx

noncomputable section

open scoped BigOperators

namespace Cert.PosEnc.Lib

open Idealize.ShloMosaic Idealize.ShloMosaic.ValueIdx

/-- Entry (y, j) of the product of a K × M matrix, transposed, with a K × N matrix, accumulated into zero, is
    `Σₖ a (k, y) · w (k, j)`, `k` over `Fin K`: the contraction index re-read as its one coordinate (`hr`, `hs`:
    one contracted axis of extent K), the operand indices by their coordinates (`hl0`, `hl1`, `hr0`, `hr1`).
    No law of real arithmetic is used, so it holds with infinite entries too. -/
theorem matmulTN_zero_ix2_apply {K M N : Nat} {φ₁ φ₂ : FTy}
    (d : DotDims ⟨2, ![K, M]⟩ ⟨2, ![K, N]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (q ⟨0, by omega⟩).val)
    (hl1 : ∀ (i : (⟨2, ![M, N]⟩ : Shape).Idx) (q : d.contr.Idx), (d.lhsIdx i q 1).val = (i 0).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (a : FVec Ideal ⟨2, ![K, M]⟩ φ₁) (w : FVec Ideal ⟨2, ![K, N]⟩ φ₂)
    (y : Fin M) (j : Fin N) :
    FloatOps.matmul d prec a w (constant ⟨2, ![M, N]⟩ .f32 0x00000000#32) (ix2 y j)
      = ∑ k : Fin K, a (ix2 k y) * w (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 k y := funext fun c => Fin.ext (by
    match c with
    | ⟨0, _⟩ => exact (hl0 _ _).trans hk
    | ⟨1, _⟩ => exact hl1 _ _)
  have er : d.rhsIdx (ix2 y j) ((contrEquiv1 d K hr hs).symm k) = ix2 k j := funext fun c => Fin.ext (by
    match c with
    | ⟨0, _⟩ => exact (hr0 _ _).trans hk
    | ⟨1, _⟩ => exact hr1 _ _)
  rw [el, er]

end Cert.PosEnc.Lib

end
-- ==== Proof.KPayload.lean ====
/-
  The two values the kernel body stores, read at an element (at the exact instance).

  At a grid point the body stores two pieces into its output block `[200, 16, 512]` (position, feature within the
  panel, batch lane):
  * position 0: the product of the point's 64 × 16 panel of `W`, transposed, with the point's 64 × 512 slab of the
    transposed energies, plus a 16 × 1 column broadcast along the lanes — at (0, q, l) it is
    `Σ_c panel(0, c, q) · slab(c, l) + column(q, 0)`;
  * positions 1 … 199: the token block plus a `[199, 16, 1]` column block broadcast along the lanes — at (n, q, l)
    it is `tokens(n, q, l) + column(n, q, 0)`.
  Each is read through the body's layout operations (casts that drop or add a unit axis, casts to the same shape, a
  broadcast of a unit last axis) one at a time.
-/
import proofs.«139763_g44925357916747_cont_8to1_c_751_15_alg».proof.Proof.Gen.KernelIdeal.Skeleton
import proofs.«139763_g44925357916747_cont_8to1_c_751_15_alg».proof.Proof.LibMatmulTN
import Idealize.ShloMosaic.Lib.Pipeline.Value
import Idealize.ShloMosaic.Lib.ValueIdx
import Idealize.ShloMosaic.PureOps.Ideal.Laws

noncomputable section

open scoped BigOperators

namespace Cert.KernelIdeal.KValue

open Cert.KernelIdeal Cert.KernelIdeal.Gen Idealize.ShloMosaic Idealize.ShloMosaic.ValueIdx

/-- The body's dot contracts one axis, of extent 64. -/
theorem dot_rank : dot_S64x16_S64x512_S16x512_0_0_1_1_n_n.contr.rank = 1 := by
  rw [DotDims.rank_contr]; rfl

theorem dot_size : dot_S64x16_S64x512_S16x512_0_0_1_1_n_n.contr.size ⟨0, by rw [dot_rank]; omega⟩ = 64 := by
  rw [DotDims.size_contr _ 0 (by decide)]; rfl

/-- The later positions' piece at (n, q, l): the token block there plus the column block at (n, q, 0). -/
theorem pay2_apply (v17 : Vec Ideal S199x16x512 .f32) (v21 : Vec Ideal S199x16x1 .f32)
    (n : Fin 199) (q : Fin 16) (l : Fin 512) :
    k0_pay2 (F := Ideal) v17 v21 (ix3 n q l) = v17 (ix3 n q l) + v21 (ix3 n q (0 : Fin 1)) := by
  unfold k0_pay2
  refine (addf_apply _ _ _).trans ?_
  rw [shapeCast_self, shapeCast_self]
  refine congrArg (v17 (ix3 n q l) + ·) ?_
  exact broadcastTo_apply v21 _ (ix3 n q l) (ix3 n q (0 : Fin 1)) (fun a => by
    match a with
    | ⟨0, _⟩ => rfl
    | ⟨1, _⟩ => rfl
    | ⟨2, _⟩ => rfl)

/-- Position 0's piece at (0, q, l): `Σ_c panel(0, c, q) · slab(c, l)` plus the column at (q, 0). -/
theorem pay1_apply (v1 : Vec Ideal S1x64x16 .f32) (v5 : Vec Ideal S64x512 .f32) (v10 : Vec Ideal S16x1 .f32)
    (q : Fin 16) (l : Fin 512) :
    k0_pay1 (F := Ideal) v1 v5 v10 (ix3 (0 : Fin 1) q l)
      = (∑ c : Fin 64, v1 (ix3 (0 : Fin 1) c q) * v5 (ix2 c l)) + v10 (ix2 q (0 : Fin 1)) := by
  unfold k0_pay1
  refine (shapeCast_addUnit_apply ![16, 512] _ _ (ix3 (0 : Fin 1) q l)).trans ?_
  have e : (fun a : Fin 2 => (ix3 (0 : Fin 1) q l : (⟨3, ![1, 16, 512]⟩ : Shape).Idx) a.succ) = ix2 q l :=
    funext fun a => by match a with | ⟨0, _⟩ => rfl | ⟨1, _⟩ => rfl
  rw [e]
  refine (addf_apply _ _ _).trans ?_
  rw [shapeCast_self, shapeCast_self]
  refine congrArg₂ (· + ·) ?_ ?_
  · refine (Cert.PosEnc.Lib.matmulTN_zero_ix2_apply dot_S64x16_S64x512_S16x512_0_0_1_1_n_n dot_rank dot_size
      (fun i k => DotDims.lhsIdx_val_of_single _ rfl i k) (fun i k => ?_)
      (fun i k => DotDims.rhsIdx_val_of_single _ rfl i k) (fun i k => ?_) none _ v5 q l).trans ?_
    · unfold DotDims.lhsIdx
      rw [dif_neg (show (1 : Fin 2) ∉ dot_S64x16_S64x512_S16x512_0_0_1_1_n_n.lhsBatch by decide),
        dif_pos (show (1 : Fin 2) ∈ dot_S64x16_S64x512_S16x512_0_0_1_1_n_n.lhsNonContracting by decide)]
      rfl
    · unfold DotDims.rhsIdx
      rw [dif_neg (show (1 : Fin 2) ∉ dot_S64x16_S64x512_S16x512_0_0_1_1_n_n.rhsBatch by decide),
        dif_pos (show (1 : Fin 2) ∈ dot_S64x16_S64x512_S16x512_0_0_1_1_n_n.rhsNonContracting by decide)]
      rfl
    · refine Finset.sum_congr rfl fun c _ => ?_
      refine congrArg (· * v5 (ix2 c l)) ?_
      refine (shapeCast_dropUnit_apply ![64, 16] v1 _ (ix2 c q)).trans ?_
      refine congrArg v1 (funext fun a => ?_)
      match a with
      | ⟨0, _⟩ => rfl
      | ⟨1, _⟩ => rfl
      | ⟨2, _⟩ => rfl
  · exact broadcastTo_apply v10 _ (ix2 q l) (ix2 q (0 : Fin 1)) (fun a => by
      match a with
      | ⟨0, _⟩ => rfl
      | ⟨1, _⟩ => rfl)

end Cert.KernelIdeal.KValue

end
-- ==== Proof.KOut.lean ====
/-
  What one grid point leaves in the output block, read at an element (at the exact instance).

  The body's run ends with the output block `[200, 16, 512]` written by two stores: position 0 (one row of 16 × 512)
  and positions 1 … 199. Read back, an element of the block is the element of the store that covers it. With the
  point's coordinates `(jj, kk)` — `jj` the block of 512 batch lanes, `kk` the panel of 16 features — and
  the five input blocks `x0 … x4` (token block, transposed energies, the panels of `W`, the bias column, the table's
  column block), the loads read `x2` at panel `kk`, `x1` at lanes `512·jj + l`, `x3` and `x4` at features
  `16·kk + q`:
  * (0, q, l) holds `Σ_c x2(kk, c, q) · x1(c, 512·jj + l) + x3(16·kk + q, 0)`;
  * (n + 1, q, l) holds `x0(n, q, l) + x4(n, 16·kk + q, 0)`.
-/
import proofs.«139763_g44925357916747_cont_8to1_c_751_15_alg».proof.Proof.Gen.KernelIdeal.Frame
import proofs.«139763_g44925357916747_cont_8to1_c_751_15_alg».proof.Proof.KPayload
import Idealize.ShloMosaic.Lib.Pipeline.Value
import Idealize.ShloMosaic.Lib.Tactic

noncomputable section

open scoped BigOperators

namespace Cert.KernelIdeal.KValue

open Cert.KernelIdeal Cert.KernelIdeal.Gen Idealize.ShloMosaic Idealize.ShloMosaic.TcCoe Idealize.SL.Sem
open Idealize.ShloMosaic.Tactic Idealize.ShloMosaic.ValueIdx

/-- Positions 1 … 199 of the block a point leaves: the token block plus the table's column at the point's features. -/
theorem out_succ (c : Dev nD) (i : grid0.Coords) (arg2 : Memref sig .tc .vmem S199x16x512 .f32) (harg2 : arg2.IsWhole) (arg3 : Memref sig .tc .vmem S64x4096 .f32) (harg3 : arg3.IsWhole) (arg4 : Memref sig .tc .vmem S4x64x16 .f32) (harg4 : arg4.IsWhole) (arg5 : Memref sig .tc .vmem S64x1 .f32) (harg5 : arg5.IsWhole) (arg6 : Memref sig .tc .vmem S199x64x1 .f32) (harg6 : arg6.IsWhole) (arg7 : Memref sig .tc .vmem S200x16x512 .f32) (harg7 : arg7.IsWhole)
    (x0 : Vec Ideal S199x16x512 .f32) (x1 : Vec Ideal S64x4096 .f32) (x2 : Vec Ideal S4x64x16 .f32) (x3 : Vec Ideal S64x1 .f32) (x4 : Vec Ideal S199x64x1 .f32)
    (kk : Fin 4) (hk : (i 1).val = kk.val) (n : Fin 199) (q : Fin 16) (l : Fin 512) :
    out0_A_5 (F := Ideal) c i arg2 harg2 arg3 harg3 arg4 harg4 arg5 harg5 arg6 harg6 arg7 harg7 x0 x1 x2 x3 x4
        (ix3 (⟨n.val + 1, by have := n.isLt; omega⟩ : Fin 200) q l)
      = x0 (ix3 n q l) + x4 (ix3 n (⟨16 * kk.val + q.val, by have := kk.isLt; have := q.isLt; omega⟩ : Fin 64) (0 : Fin 1)) := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  have hy : (ix3 (⟨n.val + 1, by have := n.isLt; omega⟩ : Fin 200) q l : S200x16x512.Idx)
      = (Rect.unit (s := S200x16x512) ![1, 0, 0] S199x16x512.size inb_S200x16x512_S199x16x512_1_0_0).emb (ix3 n q l) :=
    funext fun a => Fin.ext (by
      match a with
      | ⟨0, _⟩ => show n.val + 1 = 1 + 1 * n.val; omega
      | ⟨1, _⟩ => show q.val = 0 + 1 * q.val; omega
      | ⟨2, _⟩ => show l.val = 0 + 1 * l.val; omega)
  rw [hy, View.canon_cons_emb]
  refine (pay2_apply _ _ n q l).trans ?_
  simp only [View.readAt_eq_ld, harg2.read_unread, harg6.read_unread]
  refine congrArg₂ (· + ·) (congrArg x0 (funext fun a => Fin.ext ?_)) (congrArg x4 (funext fun a => Fin.ext ?_))
  · match a with
    | ⟨0, _⟩ => show 0 + 1 * n.val = n.val; omega
    | ⟨1, _⟩ => show 0 + 1 * q.val = q.val; omega
    | ⟨2, _⟩ => show 0 + 1 * l.val = l.val; omega
  · match a with
    | ⟨0, _⟩ => show (k0_off4 i) 0 + 1 * n.val = n.val; rw [k0_off4_eq i]; show 0 + 1 * n.val = n.val; omega
    | ⟨1, _⟩ => show (k0_off4 i) 1 + 1 * q.val = 16 * kk.val + q.val; rw [k0_off4_eq i]; show 16 * (i 1).val + 1 * q.val = 16 * kk.val + q.val; omega
    | ⟨2, _⟩ => show (k0_off4 i) 2 + 1 * 0 = 0; rw [k0_off4_eq i]; rfl

/-- Position 0 of the block a point leaves: the point's panel of `W`, transposed, times the point's slab of the
    transposed energies, plus the bias column at the point's features. -/
theorem out_zero (c : Dev nD) (i : grid0.Coords) (arg2 : Memref sig .tc .vmem S199x16x512 .f32) (harg2 : arg2.IsWhole) (arg3 : Memref sig .tc .vmem S64x4096 .f32) (harg3 : arg3.IsWhole) (arg4 : Memref sig .tc .vmem S4x64x16 .f32) (harg4 : arg4.IsWhole) (arg5 : Memref sig .tc .vmem S64x1 .f32) (harg5 : arg5.IsWhole) (arg6 : Memref sig .tc .vmem S199x64x1 .f32) (harg6 : arg6.IsWhole) (arg7 : Memref sig .tc .vmem S200x16x512 .f32) (harg7 : arg7.IsWhole)
    (x0 : Vec Ideal S199x16x512 .f32) (x1 : Vec Ideal S64x4096 .f32) (x2 : Vec Ideal S4x64x16 .f32) (x3 : Vec Ideal S64x1 .f32) (x4 : Vec Ideal S199x64x1 .f32)
    (jj : Fin 8) (kk : Fin 4) (hj : (i 0).val = jj.val) (hk : (i 1).val = kk.val) (q : Fin 16) (l : Fin 512) :
    out0_A_5 (F := Ideal) c i arg2 harg2 arg3 harg3 arg4 harg4 arg5 harg5 arg6 harg6 arg7 harg7 x0 x1 x2 x3 x4
        (ix3 (0 : Fin 200) q l)
      = (∑ cc : Fin 64, x2 (ix3 kk cc q) * x1 (ix2 cc (⟨512 * jj.val + l.val, by have := jj.isLt; have := l.isLt; omega⟩ : Fin 4096)))
        + x3 (ix2 (⟨16 * kk.val + q.val, by have := kk.isLt; have := q.isLt; omega⟩ : Fin 64) (0 : Fin 1)) := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  rw [View.canon_cons_of_not_mem _ _ (y := (ix3 (0 : Fin 200) q l : S200x16x512.Idx)) (by
    rw [Rect.mem_set_unit]
    intro h
    have := (h 0).1
    exact absurd this (by show ¬ (1 ≤ 0); omega))]
  have hy : (ix3 (0 : Fin 200) q l : S200x16x512.Idx)
      = (Rect.unit (s := S200x16x512) ![0, 0, 0] S1x16x512.size inb_S200x16x512_S1x16x512_0_0_0).emb (ix3 (0 : Fin 1) q l) :=
    funext fun a => Fin.ext (by
      match a with
      | ⟨0, _⟩ => show 0 = 0 + 1 * 0; omega
      | ⟨1, _⟩ => show q.val = 0 + 1 * q.val; omega
      | ⟨2, _⟩ => show l.val = 0 + 1 * l.val; omega)
  rw [hy, View.canon_cons_emb]
  refine (pay1_apply _ _ _ q l).trans ?_
  simp only [View.readAt_eq_ld, harg3.read_unread, harg4.read_unread, harg5.read_unread]
  refine congrArg₂ (· + ·) (Finset.sum_congr rfl fun cc _ => congrArg₂ (· * ·)
    (congrArg x2 (funext fun a => Fin.ext ?_)) (congrArg x1 (funext fun a => Fin.ext ?_))) (congrArg x3 (funext fun a => Fin.ext ?_))
  · match a with
    | ⟨0, _⟩ => show (k0_off1 i) 0 + 1 * 0 = kk.val; rw [k0_off1_eq i]; show (i 1).val + 1 * 0 = kk.val; omega
    | ⟨1, _⟩ => show (k0_off1 i) 1 + 1 * cc.val = cc.val; rw [k0_off1_eq i]; show 0 + 1 * cc.val = cc.val; omega
    | ⟨2, _⟩ => show (k0_off1 i) 2 + 1 * q.val = q.val; rw [k0_off1_eq i]; show 0 + 1 * q.val = q.val; omega
  · match a with
    | ⟨0, _⟩ => show (k0_off2 i) 0 + 1 * cc.val = cc.val; rw [k0_off2_eq i]; show 0 + 1 * cc.val = cc.val; omega
    | ⟨1, _⟩ => show (k0_off2 i) 1 + 1 * l.val = 512 * jj.val + l.val; rw [k0_off2_eq i]; show 512 * (i 0).val + 1 * l.val = 512 * jj.val + l.val; omega
  · match a with
    | ⟨0, _⟩ => show (k0_off3 i) 0 + 1 * q.val = 16 * kk.val + q.val; rw [k0_off3_eq i]; show 16 * (i 1).val + 1 * q.val = 16 * kk.val + q.val; omega
    | ⟨1, _⟩ => show (k0_off3 i) 1 + 1 * 0 = 0; rw [k0_off3_eq i]; rfl

end Cert.KernelIdeal.KValue

end
-- ==== Proof.KHost.lean ====
/-
  What the region finds in its five input arrays, read at an element of the program's arguments.

  Before the region the program re-lays its arguments:
  * the tokens `[batch, token, feature]` are transposed to `[token, feature, batch]`;
  * the energies `[batch, feature]` are transposed to `[feature, batch]`;
  * rows 1 … 199 of the position table are cut out and given a unit last axis, `[199, 64, 1]`;
  * row 0 of the table, flattened, is added to the bias, and the sum is made a column `[64, 1]`;
  * `W` `[in, out]` is cut along its output axis into 4 panels of 16 columns, `[panel, in, column]`.
  Each is a chain of layout operations (and one addition), read here one operation at a time.
-/
import proofs.«139763_g44925357916747_cont_8to1_c_751_15_alg».proof.Proof.Gen.KernelIdeal.Frame
import Idealize.ShloMosaic.Lib.Pipeline.Value
import Idealize.ShloMosaic.Lib.StableHlo.Run
import Idealize.ShloMosaic.Lib.ValueIdx
import Idealize.ShloMosaic.PureOps.Ideal

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The five arrays as terms of the arguments -/

theorem V_tokensT (c : Dev nD) : (V m c main_v0 : Vec Ideal S199x64x4096 .f32)
    = transpose S199x64x4096 [1, 2, 0] (m ((c : Thread nD τ).loc main_arg0)) transposes_S4096x199x64_S199x64x4096_1_2_0 := by
  show StableHlo.after hostOps0 (fun b => m (c, b)) (Proc.devRef .tc main_v0) = _
  after_results <;> rfl

theorem V_energiesT (c : Dev nD) : (V m c main_v1 : Vec Ideal S64x4096 .f32)
    = transpose S64x4096 [1, 0] (m ((c : Thread nD τ).loc main_arg1)) transposes_S4096x64_S64x4096_1_0 := by
  show StableHlo.after hostOps0 (fun b => m (c, b)) (Proc.devRef .tc main_v1) = _
  after_results <;> rfl

theorem V_tableRows (c : Dev nD) : (V m c main_v3 : Vec Ideal S199x64x1 .f32)
    = shapeCast S199x64x1 (extractStridedSlice S199x64 ![1, 0] (m ((c : Thread nD τ).loc main_arg4)) slices_S200x64_S199x64_1_0)
        shapeCasts_S199x64_S199x64x1 := by
  show StableHlo.after hostOps0 (fun b => m (c, b)) (Proc.devRef .tc main_v3) = _
  after_results <;> rfl

/-- The bias column as a term of a bias and a table: row 0 of the table, flattened, added to the bias, as a column. -/
def biasColumnOf (bias : FVec Ideal S64 .f32) (emb : FVec Ideal S200x64 .f32) : FVec Ideal S64x1 .f32 :=
  shapeCast S64x1 (addf (F := Ideal) bias
    (shapeCast S64 (extractStridedSlice S1x64 ![0, 0] emb slices_S200x64_S1x64_0_0) shapeCasts_S1x64_S64)) shapeCasts_S64_S64x1

theorem V_biasColumn (c : Dev nD) : (V m c main_v7 : Vec Ideal S64x1 .f32)
    = biasColumnOf (m ((c : Thread nD τ).loc main_arg3)) (m ((c : Thread nD τ).loc main_arg4)) := by
  show StableHlo.after hostOps0 (fun b => m (c, b)) (Proc.devRef .tc main_v7) = _
  after_results <;> rfl

theorem V_panels (c : Dev nD) : (V m c main_v9 : Vec Ideal S4x64x16 .f32)
    = transpose S4x64x16 [1, 0, 2] (shapeCast S64x4x16 (m ((c : Thread nD τ).loc main_arg2)) shapeCasts_S64x64_S64x4x16)
        transposes_S64x4x16_S4x64x16_1_0_2 := by
  show StableHlo.after hostOps0 (fun b => m (c, b)) (Proc.devRef .tc main_v9) = _
  after_results <;> rfl

/-! ## Each read at an element -/

/-- The transposed tokens at (token n, feature s, batch b) are the tokens at (b, n, s). -/
theorem tokensT_apply (c : Dev nD) (n : Fin 199) (s : Fin 64) (b : Fin 4096) :
    (V m c main_v0 : Vec Ideal S199x64x4096 .f32) (ix3 n s b) = (m ((c : Thread nD τ).loc main_arg0) : Vec Ideal S4096x199x64 .f32) (ix3 b n s) :=
  (congrFun (V_tokensT m c) (ix3 n s b)).trans
    (transpose_apply _ _ _ (ix3 n s b) (ix3 b n s) (fun a => by
      match a with
      | ⟨0, _⟩ => rfl
      | ⟨1, _⟩ => rfl
      | ⟨2, _⟩ => rfl))

/-- The transposed energies at (feature cc, batch b) are the energies at (b, cc). -/
theorem energiesT_apply (c : Dev nD) (cc : Fin 64) (b : Fin 4096) :
    (V m c main_v1 : Vec Ideal S64x4096 .f32) (ix2 cc b) = (m ((c : Thread nD τ).loc main_arg1) : Vec Ideal S4096x64 .f32) (ix2 b cc) :=
  (congrFun (V_energiesT m c) (ix2 cc b)).trans
    (transpose_apply _ _ _ (ix2 cc b) (ix2 b cc) (fun a => by
      match a with
      | ⟨0, _⟩ => rfl
      | ⟨1, _⟩ => rfl))

/-- The table's later rows at (n, s, 0) are the table at (n + 1, s). -/
theorem tableRows_apply (c : Dev nD) (n : Fin 199) (s : Fin 64) :
    (V m c main_v3 : Vec Ideal S199x64x1 .f32) (ix3 n s (0 : Fin 1))
      = (m ((c : Thread nD τ).loc main_arg4) : Vec Ideal S200x64 .f32) (ix2 (⟨n.val + 1, by have := n.isLt; omega⟩ : Fin 200) s) :=
  (congrFun (V_tableRows m c) (ix3 n s (0 : Fin 1))).trans
    ((shapeCast_apply _ _ (ix3 n s (0 : Fin 1)) (ix2 n s) (by
        rw [Shape.rowMajor_val_two, Shape.rowMajor_val_three]
        show n.val * 64 + s.val = (n.val * 64 + s.val) * 1 + 0
        omega)).trans
      (extractStridedSlice_apply ![1, 0] _ _ (ix2 n s) (ix2 (⟨n.val + 1, by have := n.isLt; omega⟩ : Fin 200) s) (fun a => by
        match a with
        | ⟨0, _⟩ => show n.val + 1 = 1 + n.val; omega
        | ⟨1, _⟩ => show s.val = 0 + s.val; omega)))

/-- The bias column at (s, 0) is the bias at s plus the table at (0, s). -/
theorem biasColumnOf_apply (bias : FVec Ideal S64 .f32) (emb : FVec Ideal S200x64 .f32) (s : Fin 64) :
    biasColumnOf bias emb (ix2 s (0 : Fin 1)) = bias (ix1 s) + emb (ix2 (0 : Fin 200) s) := by
  unfold biasColumnOf
  refine (shapeCast_apply _ _ (ix2 s (0 : Fin 1)) (ix1 s) (by
    rw [Shape.rowMajor_val_one, Shape.rowMajor_val_two]
    show s.val = s.val * 1 + 0
    omega)).trans ?_
  refine (addf_apply _ _ (ix1 s)).trans ?_
  refine congrArg (bias (ix1 s) + ·) ?_
  refine (shapeCast_apply _ _ (ix1 s) (ix2 (0 : Fin 1) s) (by
    rw [Shape.rowMajor_val_two, Shape.rowMajor_val_one]
    show 0 * 64 + s.val = s.val
    omega)).trans ?_
  exact extractStridedSlice_apply ![0, 0] _ _ (ix2 (0 : Fin 1) s) (ix2 (0 : Fin 200) s) (fun a => by
    match a with
    | ⟨0, _⟩ => rfl
    | ⟨1, _⟩ => show s.val = 0 + s.val; omega)

/-- The region's bias column at (s, 0), as that term of the arguments. -/
theorem biasColumn_apply (c : Dev nD) (s : Fin 64) :
    (V m c main_v7 : Vec Ideal S64x1 .f32) (ix2 s (0 : Fin 1))
      = biasColumnOf (m ((c : Thread nD τ).loc main_arg3)) (m ((c : Thread nD τ).loc main_arg4)) (ix2 s (0 : Fin 1)) :=
  congrFun (V_biasColumn m c) (ix2 s (0 : Fin 1))

/-- Panel p of `W` at (p, cc, q) is `W` at (cc, 16·p + q). -/
theorem panels_apply (c : Dev nD) (p : Fin 4) (cc : Fin 64) (q : Fin 16) :
    (V m c main_v9 : Vec Ideal S4x64x16 .f32) (ix3 p cc q)
      = (m ((c : Thread nD τ).loc main_arg2) : Vec Ideal S64x64 .f32) (ix2 cc (⟨16 * p.val + q.val, by have := p.isLt; have := q.isLt; omega⟩ : Fin 64)) :=
  (congrFun (V_panels m c) (ix3 p cc q)).trans
    ((transpose_apply _ _ _ (ix3 p cc q) (ix3 cc p q) (fun a => by
        match a with
        | ⟨0, _⟩ => rfl
        | ⟨1, _⟩ => rfl
        | ⟨2, _⟩ => rfl)).trans
      (shapeCast_apply _ _ (ix3 cc p q) (ix2 cc (⟨16 * p.val + q.val, by have := p.isLt; have := q.isLt; omega⟩ : Fin 64)) (by
        rw [Shape.rowMajor_val_two, Shape.rowMajor_val_three]
        show cc.val * 64 + (16 * p.val + q.val) = (cc.val * 4 + p.val) * 16 + q.val
        omega)))

end Cert.KernelIdeal.KValue

end
-- ==== Proof.KBlocks.lean ====
/-
  The input blocks at a grid point, read through their windows.

  The grid is 8 × 4: coordinate 0 (`jj`) picks a block of 512 batch lanes, coordinate 1 (`kk`) a panel of 16
  features. The token window's block at the point is `[199, 16, 512]` at block index (0, kk, jj) of the transposed
  tokens; the four small windows hold their whole arrays at every point. An element of a block sits in its array,
  on each axis, at block index × block size + its own coordinate.
-/
import proofs.«139763_g44925357916747_cont_8to1_c_751_15_alg».proof.Proof.Gen.KernelIdeal.Frame
import Idealize.ShloMosaic.Lib.Pipeline.Value
import Idealize.ShloMosaic.Lib.ValueIdx
import Idealize.ShloMosaic.PureOps.Ideal

noncomputable section

namespace Cert.KernelIdeal.KValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The printed index maps, decided once over the 32 points: the token window and the output window sit at block
    (0, kk, jj); the other windows never move; the coordinates are below 8 and 4. -/
theorem idx_facts : ∀ t : Fin cfg0.N,
    win0_5.index t (0 : Fin 3) = 0 ∧ win0_5.index t (1 : Fin 3) = (grid0.coords t 1).val ∧ win0_5.index t (2 : Fin 3) = (grid0.coords t 0).val
    ∧ win0_0.index t (0 : Fin 3) = 0 ∧ win0_0.index t (1 : Fin 3) = (grid0.coords t 1).val ∧ win0_0.index t (2 : Fin 3) = (grid0.coords t 0).val
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ (grid0.coords t 0).val < 8 ∧ (grid0.coords t 1).val < 4 :=
  (by decide +kernel : ∀ t : Fin grid0.N, _)

/-- Every pair of coordinates is some point's. -/
theorem idx_onto : ∀ (kk : Fin 4) (jj : Fin 8), ∃ t : Fin cfg0.N, (grid0.coords t 0).val = jj.val ∧ (grid0.coords t 1).val = kk.val :=
  (by decide +kernel : ∀ (kk : Fin 4) (jj : Fin 8), ∃ t : Fin grid0.N, (grid0.coords t 0).val = jj.val ∧ (grid0.coords t 1).val = kk.val)

/-- The token block at (n, q, l) is the transposed tokens at (n, 16·kk + q, 512·jj + l). -/
theorem tokenBlock_apply (c : Dev nD) (t : Fin cfg0.N) (jj : Fin 8) (kk : Fin 4)
    (e0 : win0_0.index t (0 : Fin 3) = 0) (e1 : win0_0.index t (1 : Fin 3) = kk.val) (e2 : win0_0.index t (2 : Fin 3) = jj.val)
    (n : Fin 199) (q : Fin 16) (l : Fin 512) :
    (iblk m c 0 t : Vec Ideal S199x16x512 .f32) (ix3 n q l)
      = (V m c main_v0 : Vec Ideal S199x64x4096 .f32)
          (ix3 n (⟨16 * kk.val + q.val, by have := kk.isLt; have := q.isLt; omega⟩ : Fin 64)
            (⟨512 * jj.val + l.val, by have := jj.isLt; have := l.isLt; omega⟩ : Fin 4096)) := by
  unfold iblk
  rw [View.read_apply]
  show V m c main_v0 (((cfg0.win 0).blk t).view.emb (ix3 n q l)) = V m c main_v0 _
  refine congrArg (V m c main_v0) (funext fun a => Fin.ext ?_)
  match a with
  | ⟨0, _⟩ => show win0_0.index t (0 : Fin 3) * 199 + 1 * n.val = n.val; rw [e0]; omega
  | ⟨1, _⟩ => show win0_0.index t (1 : Fin 3) * 16 + 1 * q.val = 16 * kk.val + q.val; rw [e1]; omega
  | ⟨2, _⟩ => show win0_0.index t (2 : Fin 3) * 512 + 1 * l.val = 512 * jj.val + l.val; rw [e2]; omega

/-- The energies' block is the whole transposed array. -/
theorem energiesBlock_apply (c : Dev nD) (t : Fin cfg0.N)
    (e0 : win0_1.index t (0 : Fin 2) = 0) (e1 : win0_1.index t (1 : Fin 2) = 0) (cc : Fin 64) (b : Fin 4096) :
    (iblk m c 1 t : Vec Ideal S64x4096 .f32) (ix2 cc b) = (V m c main_v1 : Vec Ideal S64x4096 .f32) (ix2 cc b) := by
  unfold iblk
  rw [View.read_apply]
  show V m c main_v1 (((cfg0.win 1).blk t).view.emb (ix2 cc b)) = V m c main_v1 _
  refine congrArg (V m c main_v1) (funext fun a => Fin.ext ?_)
  match a with
  | ⟨0, _⟩ => show win0_1.index t (0 : Fin 2) * 64 + 1 * cc.val = cc.val; rw [e0]; omega
  | ⟨1, _⟩ => show win0_1.index t (1 : Fin 2) * 4096 + 1 * b.val = b.val; rw [e1]; omega

/-- The panels' block is the whole array of panels. -/
theorem panelsBlock_apply (c : Dev nD) (t : Fin cfg0.N)
    (e0 : win0_2.index t (0 : Fin 3) = 0) (e1 : win0_2.index t (1 : Fin 3) = 0) (e2 : win0_2.index t (2 : Fin 3) = 0)
    (p : Fin 4) (cc : Fin 64) (q : Fin 16) :
    (iblk m c 2 t : Vec Ideal S4x64x16 .f32) (ix3 p cc q) = (V m c main_v9 : Vec Ideal S4x64x16 .f32) (ix3 p cc q) := by
  unfold iblk
  rw [View.read_apply]
  show V m c main_v9 (((cfg0.win 2).blk t).view.emb (ix3 p cc q)) = V m c main_v9 _
  refine congrArg (V m c main_v9) (funext fun a => Fin.ext ?_)
  match a with
  | ⟨0, _⟩ => show win0_2.index t (0 : Fin 3) * 4 + 1 * p.val = p.val; rw [e0]; omega
  | ⟨1, _⟩ => show win0_2.index t (1 : Fin 3) * 64 + 1 * cc.val = cc.val; rw [e1]; omega
  | ⟨2, _⟩ => show win0_2.index t (2 : Fin 3) * 16 + 1 * q.val = q.val; rw [e2]; omega

/-- The bias column's block is the whole column. -/
theorem biasBlock_apply (c : Dev nD) (t : Fin cfg0.N)
    (e0 : win0_3.index t (0 : Fin 2) = 0) (e1 : win0_3.index t (1 : Fin 2) = 0) (s : Fin 64) :
    (iblk m c 3 t : Vec Ideal S64x1 .f32) (ix2 s (0 : Fin 1)) = (V m c main_v7 : Vec Ideal S64x1 .f32) (ix2 s (0 : Fin 1)) := by
  unfold iblk
  rw [View.read_apply]
  show V m c main_v7 (((cfg0.win 3).blk t).view.emb (ix2 s (0 : Fin 1))) = V m c main_v7 _
  refine congrArg (V m c main_v7) (funext fun a => Fin.ext ?_)
  match a with
  | ⟨0, _⟩ => show win0_3.index t (0 : Fin 2) * 64 + 1 * s.val = s.val; rw [e0]; omega
  | ⟨1, _⟩ => show win0_3.index t (1 : Fin 2) * 1 + 1 * 0 = 0; rw [e1]

/-- The table rows' block is the whole column block. -/
theorem tableBlock_apply (c : Dev nD) (t : Fin cfg0.N)
    (e0 : win0_4.index t (0 : Fin 3) = 0) (e1 : win0_4.index t (1 : Fin 3) = 0) (e2 : win0_4.index t (2 : Fin 3) = 0)
    (n : Fin 199) (s : Fin 64) :
    (iblk m c 4 t : Vec Ideal S199x64x1 .f32) (ix3 n s (0 : Fin 1)) = (V m c main_v3 : Vec Ideal S199x64x1 .f32) (ix3 n s (0 : Fin 1)) := by
  unfold iblk
  rw [View.read_apply]
  show V m c main_v3 (((cfg0.win 4).blk t).view.emb (ix3 n s (0 : Fin 1))) = V m c main_v3 _
  refine congrArg (V m c main_v3) (funext fun a => Fin.ext ?_)
  match a with
  | ⟨0, _⟩ => show win0_4.index t (0 : Fin 3) * 199 + 1 * n.val = n.val; rw [e0]; omega
  | ⟨1, _⟩ => show win0_4.index t (1 : Fin 3) * 64 + 1 * s.val = s.val; rw [e1]; omega
  | ⟨2, _⟩ => show win0_4.index t (2 : Fin 3) * 1 + 1 * 0 = 0; rw [e2]

end Cert.KernelIdeal.KValue

end
-- ==== Proof.Spec.lean ====
/-
  The function both programs compute, stated once over the five argument arrays and read by coordinates.

  A batch entry `b` of the encoded sequence has 200 rows of 64 numbers. Row 0 is the dense layer of the
  batch entry's energies, `Σ_c energies(b,c) · W(c,s)`, plus the bias, plus row 0 of the position table;
  row `n ≥ 1` is token `n - 1` of the batch entry plus row `n` of the position table. All sums and
  products are those of the extended reals.
-/
import Idealize.ShloMosaic.PureOps.Ideal
import Idealize.ShloMosaic.Lib.ValueIdx

noncomputable section

open scoped BigOperators

namespace Cert.PosEnc

open Idealize.ShloMosaic Idealize.ShloMosaic.ValueIdx

/-- The tokens, `[batch, token, feature]`. -/
abbrev STok : Shape := ⟨3, ![4096, 199, 64]⟩
/-- The energies, `[batch, feature]`. -/
abbrev SEn : Shape := ⟨2, ![4096, 64]⟩
/-- The dense layer's matrix, `[in, out]`. -/
abbrev SW : Shape := ⟨2, ![64, 64]⟩
/-- The dense layer's bias. -/
abbrev SBias : Shape := ⟨1, ![64]⟩
/-- The position table, `[position, feature]`. -/
abbrev SEmb : Shape := ⟨2, ![200, 64]⟩
/-- The encoded sequence, `[batch, position, feature]`. -/
abbrev SOut : Shape := ⟨3, ![4096, 200, 64]⟩

/-- Entry `(b, s)` of the dense layer without its bias: `Σ_c energies(b,c) · W(c,s)`. -/
def dense (en : FVec Ideal SEn .f32) (W : FVec Ideal SW .f32) (b : Fin 4096) (s : Fin 64) : EReal :=
  ∑ c : Fin 64, en (ix2 b c) * W (ix2 c s)

/-- Entry `(b, n, s)` of the encoded sequence, by coordinates: position 0 is the dense row plus the bias
    plus the table's row 0; position `n ≥ 1` is token `n - 1` plus the table's row `n`. -/
def encodedAt (tok : FVec Ideal STok .f32) (en : FVec Ideal SEn .f32) (W : FVec Ideal SW .f32)
    (bias : FVec Ideal SBias .f32) (emb : FVec Ideal SEmb .f32) (b : Fin 4096) (n : Fin 200) (s : Fin 64) : EReal :=
  if h : n.val = 0 then dense en W b s + bias (ix1 s) + emb (ix2 (0 : Fin 200) s)
  else tok (ix3 b (⟨n.val - 1, by have := n.isLt; omega⟩ : Fin 199) s) + emb (ix2 n s)

/-- The encoded sequence as one array. -/
def encoded (tok : FVec Ideal STok .f32) (en : FVec Ideal SEn .f32) (W : FVec Ideal SW .f32)
    (bias : FVec Ideal SBias .f32) (emb : FVec Ideal SEmb .f32) : FVec Ideal SOut .f32 :=
  fun i => encodedAt tok en W bias emb (i 0) (i 1) (i 2)

/-- The array at an index given by its coordinates. -/
theorem encoded_ix3 (tok : FVec Ideal STok .f32) (en : FVec Ideal SEn .f32) (W : FVec Ideal SW .f32)
    (bias : FVec Ideal SBias .f32) (emb : FVec Ideal SEmb .f32) (b : Fin 4096) (n : Fin 200) (s : Fin 64) :
    encoded tok en W bias emb (ix3 b n s) = encodedAt tok en W bias emb b n s := rfl

/-- Position 0. -/
theorem encodedAt_zero (tok : FVec Ideal STok .f32) (en : FVec Ideal SEn .f32) (W : FVec Ideal SW .f32)
    (bias : FVec Ideal SBias .f32) (emb : FVec Ideal SEmb .f32) (b : Fin 4096) (n : Fin 200) (s : Fin 64) (h : n.val = 0) :
    encodedAt tok en W bias emb b n s = dense en W b s + bias (ix1 s) + emb (ix2 (0 : Fin 200) s) := by
  unfold encodedAt; rw [dif_pos h]

/-- A later position. -/
theorem encodedAt_succ (tok : FVec Ideal STok .f32) (en : FVec Ideal SEn .f32) (W : FVec Ideal SW .f32)
    (bias : FVec Ideal SBias .f32) (emb : FVec Ideal SEmb .f32) (b : Fin 4096) (n : Fin 200) (s : Fin 64) (h : ¬ n.val = 0) :
    encodedAt tok en W bias emb b n s
      = tok (ix3 b (⟨n.val - 1, by have := n.isLt; omega⟩ : Fin 199) s) + emb (ix2 n s) := by
  unfold encodedAt; rw [dif_neg h]

end Cert.PosEnc

end
-- ==== Proof.KSpec.lean ====
/-
  The array the kernel's region writes, `[position, feature, batch]`, and the law that joins it to the specification.

  The kernel works on the transposed arrangement and groups position 0 differently: it multiplies `W(c,s)` by
  `energies(b,c)` (the factors in the other order) and adds the bias to the table's row 0 BEFORE adding the sum,
  `Σ_c W(c,s) · energies(b,c) + (bias(s) + emb(0,s))`, where the specification has
  `(Σ_c energies(b,c) · W(c,s) + bias(s)) + emb(0,s)`. On the extended reals multiplication commutes and addition
  is associative (both without any finiteness condition), so the two agree entry by entry; the later positions are
  the same expression on both sides.
-/
import proofs.«139763_g44925357916747_cont_8to1_c_751_15_alg».proof.Proof.Spec

noncomputable section

open scoped BigOperators

namespace Cert.PosEnc

open Idealize.ShloMosaic Idealize.ShloMosaic.ValueIdx

/-- The region's output array, `[position, feature, batch]`. -/
abbrev SOutT : Shape := ⟨3, ![200, 64, 4096]⟩

/-- Entry `(n, s, b)` of the array the region writes, in the kernel's own grouping. -/
def encodedTAt (tok : FVec Ideal STok .f32) (en : FVec Ideal SEn .f32) (W : FVec Ideal SW .f32)
    (bias : FVec Ideal SBias .f32) (emb : FVec Ideal SEmb .f32) (n : Fin 200) (s : Fin 64) (b : Fin 4096) : EReal :=
  if h : n.val = 0 then (∑ c : Fin 64, W (ix2 c s) * en (ix2 b c)) + (bias (ix1 s) + emb (ix2 (0 : Fin 200) s))
  else tok (ix3 b (⟨n.val - 1, by have := n.isLt; omega⟩ : Fin 199) s) + emb (ix2 n s)

/-- That array. -/
def encodedT (tok : FVec Ideal STok .f32) (en : FVec Ideal SEn .f32) (W : FVec Ideal SW .f32)
    (bias : FVec Ideal SBias .f32) (emb : FVec Ideal SEmb .f32) : FVec Ideal SOutT .f32 :=
  fun y => encodedTAt tok en W bias emb (y 0) (y 1) (y 2)

theorem encodedT_ix3 (tok : FVec Ideal STok .f32) (en : FVec Ideal SEn .f32) (W : FVec Ideal SW .f32)
    (bias : FVec Ideal SBias .f32) (emb : FVec Ideal SEmb .f32) (n : Fin 200) (s : Fin 64) (b : Fin 4096) :
    encodedT tok en W bias emb (ix3 n s b) = encodedTAt tok en W bias emb n s b := rfl

theorem encodedTAt_zero (tok : FVec Ideal STok .f32) (en : FVec Ideal SEn .f32) (W : FVec Ideal SW .f32)
    (bias : FVec Ideal SBias .f32) (emb : FVec Ideal SEmb .f32) (n : Fin 200) (s : Fin 64) (b : Fin 4096) (h : n.val = 0) :
    encodedTAt tok en W bias emb n s b
      = (∑ c : Fin 64, W (ix2 c s) * en (ix2 b c)) + (bias (ix1 s) + emb (ix2 (0 : Fin 200) s)) := by
  unfold encodedTAt; rw [dif_pos h]

theorem encodedTAt_succ (tok : FVec Ideal STok .f32) (en : FVec Ideal SEn .f32) (W : FVec Ideal SW .f32)
    (bias : FVec Ideal SBias .f32) (emb : FVec Ideal SEmb .f32) (n : Fin 200) (s : Fin 64) (b : Fin 4096) (h : ¬ n.val = 0) :
    encodedTAt tok en W bias emb n s b
      = tok (ix3 b (⟨n.val - 1, by have := n.isLt; omega⟩ : Fin 199) s) + emb (ix2 n s) := by
  unfold encodedTAt; rw [dif_neg h]

/-- THE LAW: the kernel's grouping is the specification's, entry by entry — products commuted under the sum, the
    three-term sum re-associated. -/
theorem encodedTAt_eq (tok : FVec Ideal STok .f32) (en : FVec Ideal SEn .f32) (W : FVec Ideal SW .f32)
    (bias : FVec Ideal SBias .f32) (emb : FVec Ideal SEmb .f32) (n : Fin 200) (s : Fin 64) (b : Fin 4096) :
    encodedTAt tok en W bias emb n s b = encodedAt tok en W bias emb b n s := by
  by_cases h : n.val = 0
  · rw [encodedTAt_zero _ _ _ _ _ _ _ _ h, encodedAt_zero _ _ _ _ _ _ _ _ h, ← add_assoc]
    refine congrArg (· + bias (ix1 s) + emb (ix2 (0 : Fin 200) s)) ?_
    unfold dense
    exact Finset.sum_congr rfl fun c _ => mul_comm _ _
  · rw [encodedTAt_succ _ _ _ _ _ _ _ _ h, encodedAt_succ _ _ _ _ _ _ _ _ h]

end Cert.PosEnc

end
-- ==== Proof.KFinal.lean ====
/-
  The kernel's program, run: its result array is the specification's function of the arguments.

  * What a grid point writes back is the point's block of ONE array `regionOut`, the specification in the kernel's own
    arrangement `[position, feature, batch]` and grouping: position 0 of the block is the matrix product of the
    point's panel and slab plus the bias column, which read through the windows and the host's re-layings are
    `Σ_c W(c,s) · energies(b,c) + (bias(s) + emb(0,s))`; positions 1 … 199 are `tokens(b,n-1,s) + emb(n,s)`.
  * The 32 blocks tile the array (the point covering feature `s` and batch `b` is the one with coordinates
    `(b / 512, s / 16)`), so after the run the region's output array IS `regionOut`.
  * The one host operation after the region transposes it to `[batch, position, feature]`; entry by entry that is
    the specification (products commuted, the sum re-associated).
-/
import proofs.«139763_g44925357916747_cont_8to1_c_751_15_alg».proof.Proof.KOut
import proofs.«139763_g44925357916747_cont_8to1_c_751_15_alg».proof.Proof.KHost
import proofs.«139763_g44925357916747_cont_8to1_c_751_15_alg».proof.Proof.KBlocks
import proofs.«139763_g44925357916747_cont_8to1_c_751_15_alg».proof.Proof.KSpec
import Idealize.ShloMosaic.Lib.Pipeline.Value
import Idealize.ShloMosaic.Lib.StableHlo.Run

noncomputable section

open scoped BigOperators

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The array the region writes on core `c`: the specification in the kernel's arrangement, of the launch arguments. -/
abbrev regionOut (c : Dev nD) : Vec Ideal S200x64x4096 .f32 :=
  Cert.PosEnc.encodedT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- WHAT POINT `t` WRITES BACK is block `t` of `regionOut`. -/
theorem flushed_eq (c : Dev nD) (t : Fin cfg0.N) :
    (dats m 0 c).flushed 5 t = ((cfg0.win 5).blk t).view.read (Elt Ideal) (regionOut m c) := by
  show (cfg0.win 5).cut (grid0.coords t) ((dats m 0 c).after 5 t) = _
  rw [after0_5]
  unfold outsAt0
  obtain ⟨e50, e51, e52, e00, e01, e02, e10, e11, e20, e21, e22, e30, e31, e40, e41, e42, hj8, hk4⟩ := idx_facts t
  obtain ⟨jj, hjj⟩ : ∃ jj : Fin 8, (grid0.coords t 0).val = jj.val := ⟨⟨_, hj8⟩, rfl⟩
  obtain ⟨kk, hkk⟩ : ∃ kk : Fin 4, (grid0.coords t 1).val = kk.val := ⟨⟨_, hk4⟩, rfl⟩
  funext y
  obtain ⟨n, q, l, rfl⟩ : ∃ (n : Fin 200) (q : Fin 16) (l : Fin 512), y = (ix3 n q l : S200x16x512.Idx) :=
    ⟨y 0, y 1, y 2, eq_ix3 y⟩
  rw [View.read_apply]
  have hemb : ((cfg0.win 5).blk t).view.emb (ix3 n q l)
      = (ix3 n (⟨16 * kk.val + q.val, by have := kk.isLt; have := q.isLt; omega⟩ : Fin 64)
          (⟨512 * jj.val + l.val, by have := jj.isLt; have := l.isLt; omega⟩ : Fin 4096) : S200x64x4096.Idx) :=
    funext fun a => Fin.ext (by
      match a with
      | ⟨0, _⟩ => show win0_5.index t (0 : Fin 3) * 200 + 1 * n.val = n.val; rw [e50]; omega
      | ⟨1, _⟩ => show win0_5.index t (1 : Fin 3) * 16 + 1 * q.val = 16 * kk.val + q.val; rw [e51, hkk]; omega
      | ⟨2, _⟩ => show win0_5.index t (2 : Fin 3) * 512 + 1 * l.val = 512 * jj.val + l.val; rw [e52, hjj]; omega)
  show _ = regionOut m c (((cfg0.win 5).blk t).view.emb (ix3 n q l))
  rw [hemb]
  by_cases hn : n.val = 0
  · obtain rfl : n = (0 : Fin 200) := Fin.ext hn
    show out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) (ix3 (0 : Fin 200) q l) = _
    refine (out_zero c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) jj kk hjj hkk q l).trans ?_
    refine Eq.trans ?_ (Cert.PosEnc.encodedTAt_zero _ _ _ _ _ (0 : Fin 200) _ _ rfl).symm
    refine congrArg₂ (· + ·) (Finset.sum_congr rfl fun cc _ => congrArg₂ (· * ·) ?_ ?_) ?_
    · exact (panelsBlock_apply m c t e20 e21 e22 kk cc q).trans (panels_apply m c kk cc q)
    · exact (energiesBlock_apply m c t e10 e11 cc _).trans (energiesT_apply m c cc _)
    · exact ((biasBlock_apply m c t e30 e31 _).trans (biasColumn_apply m c _)).trans (biasColumnOf_apply _ _ _)
  · obtain ⟨n', rfl⟩ : ∃ n' : Fin 199, n = (⟨n'.val + 1, by have := n'.isLt; omega⟩ : Fin 200) :=
      ⟨⟨n.val - 1, by have := n.isLt; omega⟩, Fin.ext (by show n.val = n.val - 1 + 1; omega)⟩
    show out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) (ix3 (⟨n'.val + 1, by have := n'.isLt; omega⟩ : Fin 200) q l) = _
    refine (out_succ c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) kk hkk n' q l).trans ?_
    refine Eq.trans ?_ (Cert.PosEnc.encodedTAt_succ _ _ _ _ _ (⟨n'.val + 1, by have := n'.isLt; omega⟩ : Fin 200) _ _ hn).symm
    refine congrArg₂ (· + ·) ?_ ?_
    · exact (tokenBlock_apply m c t jj kk e00 (e01.trans hkk) (e02.trans hjj) n' q l).trans (tokensT_apply m c n' _ _)
    · exact (tableBlock_apply m c t e40 e41 e42 n' _).trans (tableRows_apply m c n' _)

/-- An index of the array is in point `t`'s block iff each coordinate is in the block's range on its axis. -/
theorem mem_blk (t : Fin cfg0.N) (i : S200x64x4096.Idx) :
    i ∈ ((cfg0.win 5).blk t).view.set ↔ ∀ a : Fin 3, win0_5.index t a * S200x16x512.size a ≤ (i a).val
      ∧ (i a).val < win0_5.index t a * S200x16x512.size a + S200x16x512.size a := by
  show i ∈ ((View.whole main_v10).slice (win0_5.rect t)).set ↔ _
  rw [View.set_slice_whole, Rect.mem_set_unit]
  exact Iff.rfl

/-- The blocks tile the array: feature `s` and batch `b` lie in the block of the point `(b / 512, s / 16)`. -/
theorem cover (i : S200x64x4096.Idx) :
    ∃ t : Fin cfg0.N, (cfg0.win 5).flush t = true ∧ i ∈ ((cfg0.win 5).blk t).view.set := by
  have h0 : (i 0).val < 200 := (i 0).isLt
  have h1 : (i 1).val < 64 := (i 1).isLt
  have h2 : (i 2).val < 4096 := (i 2).isLt
  obtain ⟨t, hj, hk⟩ := idx_onto ⟨(i 1).val / 16, by omega⟩ ⟨(i 2).val / 512, by omega⟩
  have hj' : (grid0.coords t 0).val = (i 2).val / 512 := hj
  have hk' : (grid0.coords t 1).val = (i 1).val / 16 := hk
  obtain ⟨e50, e51, e52, -⟩ := idx_facts t
  refine ⟨t, flush0_5 t, ?_⟩
  rw [mem_blk]
  intro a
  match a with
  | ⟨0, _⟩ =>
    show win0_5.index t (0 : Fin 3) * 200 ≤ (i 0).val ∧ (i 0).val < win0_5.index t (0 : Fin 3) * 200 + 200
    rw [e50]; omega
  | ⟨1, _⟩ =>
    show win0_5.index t (1 : Fin 3) * 16 ≤ (i 1).val ∧ (i 1).val < win0_5.index t (1 : Fin 3) * 16 + 16
    rw [e51, hk']; omega
  | ⟨2, _⟩ =>
    show win0_5.index t (2 : Fin 3) * 512 ≤ (i 2).val ∧ (i 2).val < win0_5.index t (2 : Fin 3) * 512 + 512
    rw [e52, hj']; omega

/-- THE REGION'S OUTPUT ARRAY after the run. -/
theorem final (c : Dev nD) : (dats m 0 c).arrAt 5 cfg0.N = regionOut m c :=
  (dats m 0 c).arrAt_eq_of_cover 5 (regionOut m c) (fun t _ => flushed_eq m c t) cover

/-- The transposed array, entry by entry, is the specification. -/
theorem transpose_regionOut (c : Dev nD) :
    transpose S4096x200x64 [2, 0, 1] (regionOut m c) transposes_S200x64x4096_S4096x200x64_2_0_1
      = Cert.PosEnc.encoded (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨b, n, s, rfl⟩ : ∃ (b : Fin 4096) (n : Fin 200) (s : Fin 64), i = (ix3 b n s : S4096x200x64.Idx) :=
    ⟨i 0, i 1, i 2, eq_ix3 i⟩
  refine (transpose_apply _ _ _ (ix3 b n s) (ix3 n s b) (fun a => by
    match a with
    | ⟨0, _⟩ => rfl
    | ⟨1, _⟩ => rfl
    | ⟨2, _⟩ => rfl)).trans ?_
  exact Cert.PosEnc.encodedTAt_eq _ _ _ _ _ n s b

/-- The result buffer after the host's transposition of the region's output. -/
theorem tail_eq (c : Dev nD) :
    Pipeline.afterTail₀ cfgs (dats m) 0 (V0 m) [hostOps1] c main_v11
      = Cert.PosEnc.encoded (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Pipeline.afterTail₀
  show StableHlo.after hostOps1 _ (Proc.devRef .tc main_v11) = _
  after_results
  have hw : (Pipeline.withArrays (cfgs 0).spec c (V0 m c) (fun w => (dats m 0 c).arrAt w (cfgs 0).N)
      (Proc.devRef .tc main_v10) : Vec Ideal S200x64x4096 .f32) = regionOut m c :=
    (Pipeline.withArrays_arr spec0 launch0.win.arr_inj c _ _ 5).trans (final m c)
  exact (congrArg (fun x : Vec Ideal S200x64x4096 .f32 =>
    transpose S4096x200x64 [2, 0, 1] x transposes_S200x64x4096_S4096x200x64_2_0_1) hw).trans (transpose_regionOut m c)

/-- THE RUN, READ: every weakly fair execution of the kernel's program terminates with the result array at the
    specification's function of the launch arguments, and the arguments as launched. -/
theorem run : θ_run defs (onTc (τ := τ) (main (F := Ideal))) ⟨m, fun _ => 0, ρ⟩ fun r => ∀ c : Dev nD,
      r.2.mem ((c.tc : Thread nD τ).loc main_v11)
        = Cert.PosEnc.encoded (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v11 (Pipeline.mem_restRefs_of main_v11 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.RefOps.lean ====
/-
  The reference program's run, written out: @main as one straight line of 33 host operations (the
  position lookup's body and the selection inside it listed in place, over the buffers of their call),
  and what every buffer holds at the end, as a fold of the operations over the launch contents.
-/
import proofs.«139763_g44925357916747_cont_8to1_c_751_15_alg».proof.Proof.Gen.ReferenceIdeal
import Idealize.ShloMosaic.Lib.StableHlo.Run

noncomputable section

namespace Cert.ReferenceIdeal.RefOps

open Cert.ReferenceIdeal Idealize.ShloMosaic Idealize.ShloMosaic.TcCoe Idealize.SL.Sem Idealize.ShloMosaic.StableHlo

variable {F : FTy → Type} [FloatOps F]

/-- @main's operations in order: the dense layer and its bias (4), the row it becomes and the
    concatenation with the tokens (2), the positions (1), the lookup's 23 (one of them the selection
    of the negative-index normalisation), then the two broadcasts of the looked-up table and the sum. -/
abbrev ops : List (HloOp τ sig (Elt F)) :=
  [ binary main_arg1 main_arg2 main_v0 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    unary main_arg3 main_v1 (broadcastInDim S1x64 ![1] Gen.bcast_S64_S1x64_1 : (⟨S64, .f32⟩ : BufTy).Contents (Elt F) → (⟨S1x64, .f32⟩ : BufTy).Contents (Elt F)),
    unary main_v1 main_v2 (broadcastInDim S4096x64 ![0, 1] Gen.bcast_S1x64_S4096x64_0_1 : (⟨S1x64, .f32⟩ : BufTy).Contents (Elt F) → (⟨S4096x64, .f32⟩ : BufTy).Contents (Elt F)),
    binary main_v0 main_v2 main_v3 (addf : (⟨S4096x64, .f32⟩ : BufTy).Contents (Elt F) → (⟨S4096x64, .f32⟩ : BufTy).Contents (Elt F) → (⟨S4096x64, .f32⟩ : BufTy).Contents (Elt F)),
    unary main_v3 main_v4 (broadcastInDim S4096x1x64 ![0, 2] Gen.bcast_S4096x64_S4096x1x64_0_2 : (⟨S4096x64, .f32⟩ : BufTy).Contents (Elt F) → (⟨S4096x1x64, .f32⟩ : BufTy).Contents (Elt F)),
    binary main_v4 main_arg0 main_v5 ((fun a b => concatenate S4096x200x64 1 [⟨S4096x1x64, a⟩, ⟨S4096x199x64, b⟩] Gen.concatenates_S4096x1x64_S4096x199x64_S4096x200x64_d1) : (⟨S4096x1x64, .f32⟩ : BufTy).Contents (Elt F) → (⟨S4096x199x64, .f32⟩ : BufTy).Contents (Elt F) → (⟨S4096x200x64, .f32⟩ : BufTy).Contents (Elt F)),
    nullary main_v6 (iotaInDim S200 32 0),
    TRef.nullary main_call0.c (constantI S_ 32 0#32),
    TRef.unary main_call0.c main_call0.v0 (broadcastInDim S200 ![] Gen.bcast_S_S200),
    TRef.binary (.of main_v6) main_call0.v0 main_call0.v1 (cmpi .slt),
    TRef.nullary main_call0.c_0 (constantI S_ 32 200#32),
    TRef.unary main_call0.c_0 main_call0.v2 (broadcastInDim S200 ![] Gen.bcast_S_S200),
    TRef.binary (.of main_v6) main_call0.v2 main_call0.v3 addi,
    TRef.ternary main_call0.v1 main_call0.v3 (.of main_v6) main_call0.call0.v0 select,
    TRef.unary main_call0.call0.v0 main_call0.v5 (broadcastInDim S200x1 ![0] Gen.bcast_S200_S200x1_0),
    TRef.nullary main_call0.c_1 (constantI S1 32 199#32),
    TRef.nullary main_call0.c_2 (constantI S_ 32 0#32),
    TRef.unary main_call0.c_2 main_call0.v6 (broadcastInDim S200x1 ![] Gen.bcast_S_S200x1),
    TRef.binary main_call0.v5 main_call0.v6 main_call0.v7 (cmpi .sge),
    TRef.unary main_call0.c_1 main_call0.v8 (broadcastInDim S1x1 ![1] Gen.bcast_S1_S1x1_1),
    TRef.unary main_call0.v8 main_call0.v9 (broadcastInDim S200x1 ![0, 1] Gen.bcast_S1x1_S200x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v Gen.reducesTo_S200x1_S200_d1 Gen.h_S_),
    TRef.binary (.of main_arg4) main_call0.v5 main_call0.v13 (fun x i => Host.gather gather_S200x64_S200x1_S200x64_1_0_n_n_0_1_164 x i),
    TRef.unary main_call0.v12 main_call0.v14 (broadcastInDim S200x64 ![0] Gen.bcast_S200_S200x64_0),
    TRef.nullary main_call0.cst (constant S_ .f32 0x7FC00000#32),
    TRef.unary main_call0.cst main_call0.v15 (broadcastInDim S200x64 ![] Gen.bcast_S_S200x64),
    TRef.ternary main_call0.v14 main_call0.v13 main_call0.v15 main_call0.v16 select,
    unary main_v7 main_v8 (broadcastInDim S1x200x64 ![1, 2] Gen.bcast_S200x64_S1x200x64_1_2 : (⟨S200x64, .f32⟩ : BufTy).Contents (Elt F) → (⟨S1x200x64, .f32⟩ : BufTy).Contents (Elt F)),
    unary main_v8 main_v9 (broadcastInDim S4096x200x64 ![0, 1, 2] Gen.bcast_S1x200x64_S4096x200x64_0_1_2 : (⟨S1x200x64, .f32⟩ : BufTy).Contents (Elt F) → (⟨S4096x200x64, .f32⟩ : BufTy).Contents (Elt F)),
    binary main_v5 main_v9 main_v10 (addf : (⟨S4096x200x64, .f32⟩ : BufTy).Contents (Elt F) → (⟨S4096x200x64, .f32⟩ : BufTy).Contents (Elt F) → (⟨S4096x200x64, .f32⟩ : BufTy).Contents (Elt F)) ]

set_option maxRecDepth 2048 in
/-- @main is that straight line: the two functions unfolded at their calls, the records at their fields,
    and the sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., unary_bufs_sub .., binary_bufs_sub ..,
    nullary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub ..⟩

/-- From any memory with zero counters, every weakly fair execution of @main terminates, and every final
    state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefOps

end
-- ==== Proof.RefStages.lean ====
/-
  The reference's value, stage by stage, as functions of the five argument arrays.

  The position lookup: the positions 0..199; the normalisation that adds 200 to a negative position; the
  positions as a column; the test that a position lies in [0, 199]; the rows of the table gathered at the
  positions; and the choice between a gathered row and a constant where the test fails. Then the whole
  result: the dense layer's row put in front of the tokens, plus the looked-up table repeated over the batch.
-/
import proofs.«139763_g44925357916747_cont_8to1_c_751_15_alg».proof.Proof.Gen.ReferenceIdeal

noncomputable section

namespace Cert.ReferenceIdeal.RefStages

open Cert.ReferenceIdeal Idealize.ShloMosaic

variable {F : FTy → Type} [FloatOps F]

/-- The positions 0..199, a negative one moved up by 200. -/
def pos : IVec S200 32 :=
  select (cmpi .slt (iotaInDim S200 32 0) (broadcastInDim S200 ![] Gen.bcast_S_S200 (constantI S_ 32 0#32)))
    (addi (iotaInDim S200 32 0) (broadcastInDim S200 ![] Gen.bcast_S_S200 (constantI S_ 32 200#32)))
    (iotaInDim S200 32 0)

/-- The positions as a column of start indices. -/
def posCol : IVec S200x1 32 := broadcastInDim S200x1 ![0] Gen.bcast_S200_S200x1_0 pos

/-- Per position: does it lie in [0, 199]? -/
def inRange : IVec S200 1 :=
  Host.reduce IntOp.andi
    (andi (cmpi .sge posCol (broadcastInDim S200x1 ![] Gen.bcast_S_S200x1 (constantI S_ 32 0#32)))
      (cmpi .sle posCol (broadcastInDim S200x1 ![0, 1] Gen.bcast_S1x1_S200x1_0_1
        (broadcastInDim S1x1 ![1] Gen.bcast_S1_S1x1_1 (constantI S1 32 199#32)))))
    (constantI S_ 1 1#1) Gen.reducesTo_S200x1_S200_d1 Gen.h_S_

/-- The table's rows at the positions, a constant where a position is out of range. -/
def lookup (emb : FVec F S200x64 .f32) : FVec F S200x64 .f32 :=
  select (broadcastInDim S200x64 ![0] Gen.bcast_S200_S200x64_0 inRange)
    (Host.gather gather_S200x64_S200x1_S200x64_1_0_n_n_0_1_164 emb posCol)
    (broadcastInDim S200x64 ![] Gen.bcast_S_S200x64 (constant S_ .f32 0x7FC00000#32))

/-- The dense layer with its bias, one row per batch entry. -/
def denseRow (en : FVec F S4096x64 .f32) (W : FVec F S64x64 .f32) (bias : FVec F S64 .f32) : FVec F S4096x64 .f32 :=
  addf (Host.dotGeneral dot_S4096x64_S64x64_S4096x64_1_0_0_1_n_n none en W)
    (broadcastInDim S4096x64 ![0, 1] Gen.bcast_S1x64_S4096x64_0_1 (broadcastInDim S1x64 ![1] Gen.bcast_S64_S1x64_1 bias))

/-- The result: the dense row in front of the tokens, plus the looked-up table over the batch. -/
def out (tok : FVec F S4096x199x64 .f32) (en : FVec F S4096x64 .f32) (W : FVec F S64x64 .f32) (bias : FVec F S64 .f32)
    (emb : FVec F S200x64 .f32) : FVec F S4096x200x64 .f32 :=
  addf
    (concatenate S4096x200x64 1
      [⟨S4096x1x64, broadcastInDim S4096x1x64 ![0, 2] Gen.bcast_S4096x64_S4096x1x64_0_2 (denseRow en W bias)⟩, ⟨S4096x199x64, tok⟩]
      Gen.concatenates_S4096x1x64_S4096x199x64_S4096x200x64_d1)
    (broadcastInDim S4096x200x64 ![0, 1, 2] Gen.bcast_S1x200x64_S4096x200x64_0_1_2
      (broadcastInDim S1x200x64 ![1, 2] Gen.bcast_S200x64_S1x200x64_1_2 (lookup emb)))

end Cert.ReferenceIdeal.RefStages

end
-- ==== Proof.RefRead.lean ====
/-
  The reference's run read back: after @main's operations the result buffer holds `RefStages.out` of the
  five arguments' launch contents, and the arguments are unchanged.
-/
import proofs.«139763_g44925357916747_cont_8to1_c_751_15_alg».proof.Proof.RefOps
import proofs.«139763_g44925357916747_cont_8to1_c_751_15_alg».proof.Proof.RefStages

noncomputable section

namespace Cert.ReferenceIdeal.RefRead

open Cert.ReferenceIdeal Idealize.ShloMosaic Idealize.ShloMosaic.TcCoe Idealize.SL.Sem Idealize.ShloMosaic.StableHlo
open Cert.ReferenceIdeal.RefOps Cert.ReferenceIdeal.RefStages

variable {F : FTy → Type} [FloatOps F]

attribute [local irreducible] Host.reduce Host.gather concatenate in
set_option maxRecDepth 8192 in
/-- The fold at the result buffer is `out` of the arguments, by computation: each operation's result at the
    buffer it writes, every other buffer as it was. The reduction, the gather, the contraction and the
    concatenation are kept folded meanwhile: the equation never looks inside them. -/
theorem out_eq (V : Valuation τ sig (Elt F)) :
    after ops V (main_v10 : DevRef τ sig)
      = out (V (main_arg0 : DevRef τ sig)) (V (main_arg1 : DevRef τ sig)) (V (main_arg2 : DevRef τ sig))
          (V (main_arg3 : DevRef τ sig)) (V (main_arg4 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

/-- Every weakly fair execution of @main terminates with the result buffer at `out` of the arguments' launch
    contents and the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
        = out (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v10).trans (out_eq _), (h c main_arg0).trans (arg0_eq _),
      (h c main_arg1).trans (arg1_eq _), (h c main_arg2).trans (arg2_eq _), (h c main_arg3).trans (arg3_eq _),
      (h c main_arg4).trans (arg4_eq _)⟩)
    (run_main m ρ)

end Cert.ReferenceIdeal.RefRead

end
-- ==== Proof.LibRows.lean ====
/-
  Row gathers and row scatter-adds read at an index.

  A segment sum `segment_sum(u, seg, n)` over a flat array `u : [M]` or over rows `u : [M, C]`, and a row lookup
  `x[seg]` of `x : [N]` or `x : [N, C]`, lower to `stablehlo.scatter` / `stablehlo.gather` whose start indices are the
  column `seg[:, None] : [M, 1]`. This module fixes those four sets of dimension numbers and reads them at an index:

  * the scatter's update `e` (or `(e, c)`) lands on element `v` (or `(v, c')`) exactly when the start index
    `seg[e]`, read as a signed integer, is `v` (and `c = c'`); a start index outside `[0, N)` lands nowhere;
  * so, on the extended reals, the accumulating scatter at `v` is the operand's element plus the sum of the updates
    over the set `{e | seg[e] = v}`;
  * the gather's element `e` is the operand at the start index `seg[e]` clamped into `[0, N - 1]`.
-/
import Idealize.ShloMosaic.Lib.ValueIdx
import Idealize.ShloMosaic.PureOps.Ideal

noncomputable section

open scoped BigOperators

namespace Cert.LibRows

open Idealize.ShloMosaic Idealize.ShloMosaic.ValueIdx

/-- The start-index column's entry for row `e`: the index `[e, 0]` of an `[M, 1]` array. -/
abbrev col {M : Nat} (e : Fin M) : (⟨2, ![M, 1]⟩ : Shape).Idx := ix2 e (0 : Fin 1)

/-! ## Scatter of a flat array: operand `[N]`, start indices `[M, 1]`, updates `[M]` -/

/-- `inserted_window_dims = [0]`, `scatter_dims_to_operand_dims = [0]`, `index_vector_dim = 1`, no window axes. -/
abbrev scat1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Scat1
variable {N M w : Nat} (wf : ScatterDims.WF ⟨1, ![N]⟩ ⟨2, ![M, 1]⟩ ⟨1, ![M]⟩ [] [0] [0] 1)

/-- Update `j` starts at its row's start index, read signed. -/
theorem scat1_start (j : (⟨1, ![M]⟩ : Shape).Idx) (idx : IVec ⟨2, ![M, 1]⟩ w) :
    (scat1 N M wf).start j idx 0 = (idx (col (j 0))).toInt := by
  unfold ScatterDims.start
  rw [dif_pos (show (0 : Fin 1) ∈ (scat1 N M wf).scatterDimsToOperandDims from List.mem_singleton.mpr rfl)]
  have hsi : (scat1 N M wf).siIdx j ⟨List.idxOf (0 : Fin 1) (scat1 N M wf).scatterDimsToOperandDims,
      List.idxOf_lt_length_iff.2 (List.mem_singleton.mpr rfl)⟩ = col (j 0) := by
    funext b; refine Fin.ext ?_
    match b with
    | ⟨0, _⟩ => rfl
    | ⟨1, _⟩ => rfl
  rw [hsi]
  rfl

/-- The operand's one axis is inserted: no window coordinate. -/
theorem scat1_window (j : (⟨1, ![M]⟩ : Shape).Idx) : (scat1 N M wf).window j 0 = 0 := by
  unfold ScatterDims.window
  have h : (0 : Fin 1) ∉ (scat1 N M wf).sKept :=
    (by decide : (0 : Fin 1) ∉ (List.finRange 1).filter (fun a => a ∉ [(0 : Fin 1)]))
  rw [dif_neg h]

/-- UPDATE `e` LANDS ON ELEMENT `v` exactly when its start index is `v`. -/
theorem scat1_resultIdx (e : Fin M) (idx : IVec ⟨2, ![M, 1]⟩ w) (v : Fin N) :
    (scat1 N M wf).resultIdx? (ix1 e) idx = some (ix1 v) ↔ (idx (col e)).toInt = (v.val : Int) := by
  have hs : (scat1 N M wf).start (ix1 e) idx 0 + ((scat1 N M wf).window (ix1 e) 0 : Int) = (idx (col e)).toInt := by
    rw [scat1_start, scat1_window, Nat.cast_zero, add_zero]; rfl
  have hv : v.val < N := v.isLt
  unfold ScatterDims.resultIdx?
  split
  · next h =>
    rw [Option.some.injEq]
    constructor
    · intro hq
      have h1 : ((scat1 N M wf).start (ix1 e) idx 0 + ((scat1 N M wf).window (ix1 e) 0 : Int)).toNat = v.val :=
        congrArg (fun f : (⟨1, ![N]⟩ : Shape).Idx => (f 0).val) hq
      have h0 := (h 0).1
      rw [hs] at h1 h0
      omega
    · intro hq
      funext a
      obtain rfl : a = 0 := Subsingleton.elim _ _
      refine Fin.ext ?_
      show ((scat1 N M wf).start (ix1 e) idx 0 + ((scat1 N M wf).window (ix1 e) 0 : Int)).toNat = v.val
      rw [hs, hq]; simp
  · next h =>
    constructor
    · intro hq; exact absurd hq (by simp)
    · intro hq
      refine absurd (fun a => ?_) h
      obtain rfl : a = 0 := Subsingleton.elim _ _
      rw [hs, hq]
      exact ⟨by omega, by show (v.val : Int) < ((N : Nat) : Int); omega⟩

/-- THE ACCUMULATING SCATTER AT ELEMENT `v`, on the extended reals: the operand's element plus the updates whose
    start index is `v`. -/
theorem scat1_apply (x : (⟨1, ![N]⟩ : Shape).Idx → EReal) (idx : IVec ⟨2, ![M, 1]⟩ w)
    (upd : (⟨1, ![M]⟩ : Shape).Idx → EReal) (v : Fin N) :
    Ideal.hostScatterAdd (scat1 N M wf) x idx upd (ix1 v)
      = x (ix1 v) + ∑ e ∈ Finset.univ.filter (fun e : Fin M => (idx (col e)).toInt = (v.val : Int)), upd (ix1 e) := by
  unfold Ideal.hostScatterAdd
  refine congrArg (x (ix1 v) + ·) ?_
  refine Finset.sum_nbij' (fun j => (j 0 : Fin M)) (fun e => ix1 e) ?_ ?_ ?_ ?_ ?_
  · intro j hj
    have hj' := (Finset.mem_filter.mp hj).2
    rw [eq_ix1 j] at hj'
    exact Finset.mem_filter.mpr ⟨Finset.mem_univ _, (scat1_resultIdx wf _ idx v).mp hj'⟩
  · intro e he
    exact Finset.mem_filter.mpr ⟨Finset.mem_univ _, (scat1_resultIdx wf e idx v).mpr (Finset.mem_filter.mp he).2⟩
  · intro j _; exact (eq_ix1 j).symm
  · intro e _; rfl
  · intro j _; exact congrArg upd (eq_ix1 j)

end Scat1

/-! ## Scatter of rows: operand `[N, C]`, start indices `[M, 1]`, updates `[M, C]` -/

/-- `update_window_dims = [1]`, `inserted_window_dims = [0]`, `scatter_dims_to_operand_dims = [0]`,
    `index_vector_dim = 1`. -/
abbrev scat2 (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section Scat2
variable {N M C w : Nat} (wf : ScatterDims.WF ⟨2, ![N, C]⟩ ⟨2, ![M, 1]⟩ ⟨2, ![M, C]⟩ [1] [0] [0] 1)

/-- On the row axis update `j` starts at its row's start index, read signed. -/
theorem scat2_start0 (j : (⟨2, ![M, C]⟩ : Shape).Idx) (idx : IVec ⟨2, ![M, 1]⟩ w) :
    (scat2 N M C wf).start j idx 0 = (idx (col (j 0))).toInt := by
  unfold ScatterDims.start
  rw [dif_pos (show (0 : Fin 2) ∈ (scat2 N M C wf).scatterDimsToOperandDims from List.mem_singleton.mpr rfl)]
  have hsi : (scat2 N M C wf).siIdx j ⟨List.idxOf (0 : Fin 2) (scat2 N M C wf).scatterDimsToOperandDims,
      List.idxOf_lt_length_iff.2 (List.mem_singleton.mpr rfl)⟩ = col (j 0) := by
    funext b; refine Fin.ext ?_
    match b with
    | ⟨0, _⟩ => rfl
    | ⟨1, _⟩ => rfl
  rw [hsi]
  rfl

/-- The column axis is not indexed: the window starts at `0` there. -/
theorem scat2_start1 (j : (⟨2, ![M, C]⟩ : Shape).Idx) (idx : IVec ⟨2, ![M, 1]⟩ w) :
    (scat2 N M C wf).start j idx 1 = 0 := by
  unfold ScatterDims.start
  rw [dif_neg (show (1 : Fin 2) ∉ [(0 : Fin 2)] by decide)]

/-- The row axis is inserted: no window coordinate. -/
theorem scat2_window0 (j : (⟨2, ![M, C]⟩ : Shape).Idx) : (scat2 N M C wf).window j 0 = 0 := by
  unfold ScatterDims.window
  have h : (0 : Fin 2) ∉ (scat2 N M C wf).sKept :=
    (by decide : (0 : Fin 2) ∉ (List.finRange 2).filter (fun a => a ∉ [(0 : Fin 2)]))
  rw [dif_neg h]

/-- The column axis carries the update's column. -/
theorem scat2_window1 (j : (⟨2, ![M, C]⟩ : Shape).Idx) : (scat2 N M C wf).window j 1 = (j 1).val := by
  unfold ScatterDims.window
  have h : (1 : Fin 2) ∈ (scat2 N M C wf).sKept :=
    (by decide : (1 : Fin 2) ∈ (List.finRange 2).filter (fun a => a ∉ [(0 : Fin 2)]))
  rw [dif_pos h]
  rfl

/-- UPDATE `(e, c)` LANDS ON ELEMENT `(v, c')` exactly when row `e`'s start index is `v` and `c = c'`. -/
theorem scat2_resultIdx (e : Fin M) (c : Fin C) (idx : IVec ⟨2, ![M, 1]⟩ w) (v : Fin N) (c' : Fin C) :
    (scat2 N M C wf).resultIdx? (ix2 e c) idx = some (ix2 v c')
      ↔ (idx (col e)).toInt = (v.val : Int) ∧ c = c' := by
  have hs0 : (scat2 N M C wf).start (ix2 e c) idx 0 + ((scat2 N M C wf).window (ix2 e c) 0 : Int) = (idx (col e)).toInt := by
    rw [scat2_start0, scat2_window0, Nat.cast_zero, add_zero]; rfl
  have hs1 : (scat2 N M C wf).start (ix2 e c) idx 1 + ((scat2 N M C wf).window (ix2 e c) 1 : Int) = (c.val : Int) := by
    rw [scat2_start1, scat2_window1, zero_add]; rfl
  have hv : v.val < N := v.isLt
  have hc : c.val < C := c.isLt
  unfold ScatterDims.resultIdx?
  split
  · next h =>
    rw [Option.some.injEq]
    constructor
    · intro hq
      have h1 : ((scat2 N M C wf).start (ix2 e c) idx 0 + ((scat2 N M C wf).window (ix2 e c) 0 : Int)).toNat = v.val :=
        congrArg (fun f : (⟨2, ![N, C]⟩ : Shape).Idx => (f 0).val) hq
      have h2 : ((scat2 N M C wf).start (ix2 e c) idx 1 + ((scat2 N M C wf).window (ix2 e c) 1 : Int)).toNat = c'.val :=
        congrArg (fun f : (⟨2, ![N, C]⟩ : Shape).Idx => (f 1).val) hq
      have h0 := (h 0).1
      rw [hs0] at h1 h0
      rw [hs1] at h2
      exact ⟨by omega, Fin.ext (by omega)⟩
    · rintro ⟨hq, rfl⟩
      funext a
      refine Fin.ext ?_
      match a with
      | ⟨0, _⟩ =>
        show ((scat2 N M C wf).start (ix2 e c) idx 0 + ((scat2 N M C wf).window (ix2 e c) 0 : Int)).toNat = v.val
        rw [hs0, hq]; simp
      | ⟨1, _⟩ =>
        show ((scat2 N M C wf).start (ix2 e c) idx 1 + ((scat2 N M C wf).window (ix2 e c) 1 : Int)).toNat = c.val
        rw [hs1]; simp
  · next h =>
    constructor
    · intro hq; exact absurd hq (by simp)
    · rintro ⟨hq, rfl⟩
      refine absurd (fun a => ?_) h
      match a with
      | ⟨0, _⟩ =>
        show 0 ≤ (scat2 N M C wf).start (ix2 e c) idx 0 + ((scat2 N M C wf).window (ix2 e c) 0 : Int)
          ∧ (scat2 N M C wf).start (ix2 e c) idx 0 + ((scat2 N M C wf).window (ix2 e c) 0 : Int) < ((N : Nat) : Int)
        rw [hs0, hq]; omega
      | ⟨1, _⟩ =>
        show 0 ≤ (scat2 N M C wf).start (ix2 e c) idx 1 + ((scat2 N M C wf).window (ix2 e c) 1 : Int)
          ∧ (scat2 N M C wf).start (ix2 e c) idx 1 + ((scat2 N M C wf).window (ix2 e c) 1 : Int) < ((C : Nat) : Int)
        rw [hs1]; omega

/-- THE ACCUMULATING SCATTER AT ELEMENT `(v, c)`, on the extended reals: the operand's element plus column `c` of the
    update rows whose start index is `v`. -/
theorem scat2_apply (x : (⟨2, ![N, C]⟩ : Shape).Idx → EReal) (idx : IVec ⟨2, ![M, 1]⟩ w)
    (upd : (⟨2, ![M, C]⟩ : Shape).Idx → EReal) (v : Fin N) (c : Fin C) :
    Ideal.hostScatterAdd (scat2 N M C wf) x idx upd (ix2 v c)
      = x (ix2 v c) + ∑ e ∈ Finset.univ.filter (fun e : Fin M => (idx (col e)).toInt = (v.val : Int)), upd (ix2 e c) := by
  unfold Ideal.hostScatterAdd
  refine congrArg (x (ix2 v c) + ·) ?_
  have key : ∀ j : (⟨2, ![M, C]⟩ : Shape).Idx, j ∈ Finset.univ.filter
      (fun j => (scat2 N M C wf).resultIdx? j idx = some (ix2 v c)) →
      (idx (col (j 0 : Fin M))).toInt = (v.val : Int) ∧ (j 1 : Fin C) = c := by
    intro j hj
    have hj' := (Finset.mem_filter.mp hj).2
    rw [eq_ix2 j] at hj'
    exact (scat2_resultIdx wf _ _ idx v c).mp hj'
  refine Finset.sum_nbij' (fun j => (j 0 : Fin M)) (fun e => ix2 e c) ?_ ?_ ?_ ?_ ?_
  · intro j hj
    exact Finset.mem_filter.mpr ⟨Finset.mem_univ _, (key j hj).1⟩
  · intro e he
    exact Finset.mem_filter.mpr ⟨Finset.mem_univ _,
      (scat2_resultIdx wf e c idx v c).mpr ⟨(Finset.mem_filter.mp he).2, rfl⟩⟩
  · intro j hj
    show ix2 (j 0 : Fin M) c = j
    rw [← (key j hj).2]; exact (eq_ix2 j).symm
  · intro e _; rfl
  · intro j hj
    show upd j = upd (ix2 (j 0 : Fin M) c)
    rw [← (key j hj).2]; exact congrArg upd (eq_ix2 j)

end Scat2

/-! ## Gather from a flat array: operand `[N]`, start indices `[M, 1]`, result `[M]` -/

/-- `collapsed_slice_dims = [0]`, `start_index_map = [0]`, `index_vector_dim = 1`, `slice_sizes = [1]`. -/
abbrev gath1 (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER AT ELEMENT `e`: the operand at row `e`'s start index, read signed and clamped into `[0, N - 1]`. -/
theorem gath1_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gath1 N M wf) x idx (ix1 e) = x (ix1 ⟨min (idx (col e)).toInt.toNat (N - 1), by omega⟩) := by
  unfold Host.gather
  congr 1
  funext a
  obtain rfl : a = 0 := Subsingleton.elim _ _
  refine Fin.ext ?_
  show (gath1 N M wf).start (ix1 e) idx 0 + (gath1 N M wf).batchCoord (ix1 e) 0 + (gath1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N M wf).startIndexMap from List.mem_singleton.mpr rfl)]
  have hsi : (gath1 N M wf).siIdx (ix1 e) ⟨List.idxOf (0 : Fin 1) (gath1 N M wf).startIndexMap,
      List.idxOf_lt_length_iff.2 (List.mem_singleton.mpr rfl)⟩ = col e := by
    funext b; refine Fin.ext ?_
    match b with
    | ⟨0, _⟩ => rfl
    | ⟨1, _⟩ => rfl
  rw [hsi]
  rfl

/-! ## Gather of rows: operand `[N, C]`, start indices `[M, 1]`, result `[M, C]` -/

/-- `offset_dims = [1]`, `collapsed_slice_dims = [0]`, `start_index_map = [0]`, `index_vector_dim = 1`,
    `slice_sizes = [1, C]`. -/
abbrev gath2 (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER AT ELEMENT `(e, c)`: column `c` of the operand's row at row `e`'s start index, read signed and
    clamped into `[0, N - 1]`. -/
theorem gath2_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (gath2 N M C wf) x idx (ix2 e c)
      = x (ix2 ⟨min (idx (col e)).toInt.toNat (N - 1), by omega⟩ c) := by
  unfold Host.gather
  congr 1
  funext a
  refine Fin.ext ?_
  match a with
  | ⟨0, _⟩ =>
    show (gath2 N M C wf).start (ix2 e c) idx 0 + (gath2 N M C wf).batchCoord (ix2 e c) 0
      + (gath2 N M C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 N M C wf).startIndexMap from List.mem_singleton.mpr rfl)]
    have hsi : (gath2 N M C wf).siIdx (ix2 e c) ⟨List.idxOf (0 : Fin 2) (gath2 N M C wf).startIndexMap,
        List.idxOf_lt_length_iff.2 (List.mem_singleton.mpr rfl)⟩ = col e := by
      funext b; refine Fin.ext ?_
      match b with
      | ⟨0, _⟩ => rfl
      | ⟨1, _⟩ => rfl
    rw [hsi]
    rfl
  | ⟨1, _⟩ =>
    show (gath2 N M C wf).start (ix2 e c) idx 1 + (gath2 N M C wf).batchCoord (ix2 e c) 1
      + (gath2 N M C wf).offCoord (ix2 e c) 1 = c.val
    rw [GatherDims.batchCoord_eq_zero _ _ _ List.not_mem_nil]
    have h0 : (gath2 N M C wf).start (ix2 e c) idx 1 = 0 := by
      unfold GatherDims.start
      rw [dif_neg (show (1 : Fin 2) ∉ [(0 : Fin 2)] by decide)]
    have h1 : (gath2 N M C wf).offCoord (ix2 e c) 1 = c.val := by
      unfold GatherDims.offCoord
      have h : (1 : Fin 2) ∈ (gath2 N M C wf).sKept :=
        (GatherDims.mem_sKept _ _).mpr ⟨(by decide : (1 : Fin 2) ∉ [(0 : Fin 2)]), List.not_mem_nil⟩
      rw [dif_pos h]
      rfl
    rw [h0, h1, Nat.zero_add]

end Cert.LibRows

end
-- ==== Proof.RefTake.lean ====
/-
  The position lookup is the identity.

  The positions are 0..199, none negative, so the normalisation leaves them alone; each lies in [0, 199], so the
  range test holds everywhere; the row gathered at position p (clamped into [0, 199]) is row p of the table; and
  the choice on the range test takes the gathered row. So the looked-up table is the table.
-/
import proofs.«139763_g44925357916747_cont_8to1_c_751_15_alg».proof.Proof.RefStages
import proofs.«139763_g44925357916747_cont_8to1_c_751_15_alg».proof.Proof.LibRows
import Idealize.ShloMosaic.Lib.ValueIdx
import Idealize.ShloMosaic.Lib.Pipeline.Value
import Idealize.ShloMosaic.Lib.ReduceAll

noncomputable section

namespace Cert.ReferenceIdeal.RefTake

open Cert.ReferenceIdeal Cert.ReferenceIdeal.RefStages Idealize.ShloMosaic Idealize.ShloMosaic.ValueIdx

/-- A 32-bit word holding a number below 200 reads, signed, as that number. -/
theorem toInt_ofNat_lt (p : Nat) (hp : p < 200) : (BitVec.ofNat 32 p).toInt = (p : Int) := by
  rw [BitVec.toInt_ofNat']
  exact Int.bmod_eq_of_le (by omega) (by omega)

theorem toInt_zero : (0#32 : BitVec 32).toInt = 0 := by decide
theorem toInt_199 : (199#32 : BitVec 32).toInt = 199 := by decide

/-- A running "and" that starts at 1 and meets only 1s ends at 1. -/
theorem foldl_andi_one {ι : Type} (x : ι → BitVec 1) (hx : ∀ i, x i = 1#1) (l : List ι) :
    l.foldl (fun r i => IntOp.andi r (x i)) 1#1 = 1#1 := by
  induction l with
  | nil => rfl
  | cons a l ih =>
    have e : IntOp.andi (1#1 : BitVec 1) 1#1 = 1#1 := by decide
    rw [List.foldl_cons, hx a, e]
    exact ih

/-- Position p is not negative, so the normalisation leaves it: the word p. -/
theorem pos_apply (p : Fin 200) : pos (ix1 p) = BitVec.ofNat 32 p.val := by
  have h : IntOp.cmpi .slt (BitVec.ofNat 32 p.val) 0#32 = 0#1 :=
    eq_zero_of_ne_one fun h => by
      rw [IntOp.cmpi_slt, toInt_ofNat_lt p.val p.isLt, toInt_zero] at h
      omega
  show Scalar.select (IntOp.cmpi .slt (BitVec.ofNat 32 p.val) 0#32) (IntOp.addi (BitVec.ofNat 32 p.val) 200#32)
    (BitVec.ofNat 32 p.val) = _
  rw [h, select_zero]

/-- The column of start indices holds the word p in row p. -/
theorem posCol_apply (p : Fin 200) (z : Fin 1) : posCol (ix2 p z) = BitVec.ofNat 32 p.val := by
  unfold posCol
  refine (broadcastInDim_apply _ _ pos (ix2 p z) (ix1 p) fun a => ?_).trans (pos_apply p)
  match a with
  | ⟨0, _⟩ => rfl

/-- Every position passes the range test. -/
theorem inRange_apply (p : Fin 200) : inRange (ix1 p) = 1#1 := by
  unfold inRange
  rw [Host.reduce_eq_foldl]
  refine foldl_andi_one _ (fun i => ?_) _
  obtain ⟨q, z, rfl⟩ : ∃ (q : Fin 200) (z : Fin 1), i = ix2 q z := ⟨i 0, i 1, eq_ix2 i⟩
  show IntOp.andi (IntOp.cmpi .sge (posCol (ix2 q z)) 0#32) (IntOp.cmpi .sle (posCol (ix2 q z)) 199#32) = 1#1
  rw [posCol_apply]
  have hq := q.isLt
  refine IntOp.andi_eq_one.mpr ⟨IntOp.cmpi_sge.mpr ?_, IntOp.cmpi_sle.mpr ?_⟩
  · rw [toInt_ofNat_lt q.val q.isLt, toInt_zero]; omega
  · rw [toInt_ofNat_lt q.val q.isLt, toInt_199]; omega

variable {F : FTy → Type} [FloatOps F]

/-- The row gathered at position p is row p. -/
theorem gather_apply (emb : FVec F S200x64 .f32) (p : Fin 200) (s : Fin 64) :
    Host.gather gather_S200x64_S200x1_S200x64_1_0_n_n_0_1_164 emb posCol (ix2 p s) = emb (ix2 p s) := by
  refine (Cert.LibRows.gath2_apply (N := 200) (M := 200) (C := 64) (by decide)
    Gen.gather_S200x64_S200x1_S200x64_1_0_n_n_0_1_164_wf emb posCol p s).trans ?_
  have hv : (posCol (Cert.LibRows.col p)).toInt = (p.val : Int) := by
    rw [show Cert.LibRows.col p = ix2 p (0 : Fin 1) from rfl, posCol_apply, toInt_ofNat_lt p.val p.isLt]
  refine congrArg (fun q : Fin 200 => emb (ix2 q s)) (Fin.ext ?_)
  show min (posCol (Cert.LibRows.col p)).toInt.toNat (200 - 1) = p.val
  rw [hv]
  have hp := p.isLt
  omega

/-- The looked-up table is the table. -/
theorem lookup_eq (emb : FVec F S200x64 .f32) : lookup emb = emb := by
  funext i
  obtain ⟨p, s, rfl⟩ : ∃ (p : Fin 200) (s : Fin 64), i = ix2 p s := ⟨i 0, i 1, eq_ix2 i⟩
  have hm : broadcastInDim S200x64 ![0] Gen.bcast_S200_S200x64_0 inRange (ix2 p s) = 1#1 := by
    refine (broadcastInDim_apply _ _ inRange (ix2 p s) (ix1 p) fun a => ?_).trans (inRange_apply p)
    match a with
    | ⟨0, _⟩ => rfl
  show Scalar.select (broadcastInDim S200x64 ![0] Gen.bcast_S200_S200x64_0 inRange (ix2 p s))
    (Host.gather gather_S200x64_S200x1_S200x64_1_0_n_n_0_1_164 emb posCol (ix2 p s))
    (broadcastInDim S200x64 ![] Gen.bcast_S_S200x64 (constant S_ .f32 0x7FC00000#32) (ix2 p s)) = emb (ix2 p s)
  rw [hm, select_one, gather_apply]

end Cert.ReferenceIdeal.RefTake

end
-- ==== Proof.LibDense.lean ====
/-
  Dense layers read at an entry.

  At the exact instance a host matrix product (`stablehlo.dot_general`) of an M × K by a K × N matrix, one contracted axis
  and no batch axis, is at entry (y, j) the sum over k of a[y, k] · w[k, j]: the contraction index re-read as its one
  coordinate, the operand indices by their coordinates, which are taken as hypotheses (for a concrete record each is a
  computation). Three blocks of equally many columns laid side by side read, in a column of the k-th block, that block at
  the column less the blocks before it; a block of columns cut out of a matrix reads the matrix at the column moved by the
  block's offset. The maximum over a finite family started from a value is that value when taken once more against it.
-/
import Idealize.ShloMosaic.PureOps.Ideal.Laws
import Idealize.ShloMosaic.Lib.ValueIdx
import Idealize.ShloMosaic.Lib.Pipeline.Value

noncomputable section

open scoped BigOperators

namespace Cert.LibDense

open Idealize.ShloMosaic Idealize.ShloMosaic.ValueIdx

/-- Entry (y, j) of the host product of an M × K by a K × N matrix is `Σₖ a (y, k) · w (k, j)`, k over `Fin K`. Nothing of
    real arithmetic is used, so it holds with infinite entries too. -/
theorem hostDot_ix2_apply {M K N : Nat} {φ₁ φ₂ : FTy}
    (d : DotDims ⟨2, ![M, K]⟩ ⟨2, ![K, N]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (a : FVec Ideal ⟨2, ![M, K]⟩ φ₁) (w : FVec Ideal ⟨2, ![K, N]⟩ φ₂)
    (y : Fin M) (j : Fin N) :
    Host.dotGeneral d prec a w (ix2 y j) = ∑ k : Fin K, a (ix2 y k) * w (ix2 k j) := by
  show FloatOps.dotGeneral d prec .single a w (ix2 y j) = _
  rw [Ideal.dotGeneral_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 y k := funext fun c => Fin.ext (by
    match c with
    | ⟨0, _⟩ => exact hl0 _ _
    | ⟨1, _⟩ => exact (hl1 _ _).trans hk)
  have er : d.rhsIdx (ix2 y j) ((contrEquiv1 d K hr hs).symm k) = ix2 k j := funext fun c => Fin.ext (by
    match c with
    | ⟨0, _⟩ => exact (hr0 _ _).trans hk
    | ⟨1, _⟩ => exact hr1 _ _)
  rw [el, er]

/-- A block of `b` columns cut out of an `a × n` matrix at column offset `o` reads, at `(p, q)`, the matrix at
    `(p, o + q)`. -/
theorem sliceCols_apply {α : Type} {a n b : Nat} (o : Nat) (x : (⟨2, ![a, n]⟩ : Shape).Idx → α)
    (h : (⟨2, ![a, n]⟩ : Shape).Slices ![0, o] ⟨2, ![a, b]⟩) (p : Fin a) (q : Fin b) (hq : o + q.val < n) :
    extractStridedSlice ⟨2, ![a, b]⟩ ![0, o] x h (ix2 p q) = x (ix2 p ⟨o + q.val, hq⟩) :=
  extractStridedSlice_apply _ x h _ _ fun c => by
    match c with
    | ⟨0, _⟩ => show p.val = 0 + p.val; omega
    | ⟨1, _⟩ => rfl

/-- Taking the maximum once more against the value a running maximum started from changes nothing. -/
theorem max_fold_max_self {ι : Type} (s : Finset ι) (a : EReal) (f : ι → EReal) :
    max a (s.fold max a f) = s.fold max a f :=
  max_eq_right (Finset.le_fold_max a |>.mpr (Or.inl le_rfl))

end Cert.LibDense

end
-- ==== Proof.RefValue.lean ====
/-
  The reference computes the encoded sequence.

  At index (b, n, s) the result is the concatenation's element plus the looked-up table's element (n, s), and the
  looked-up table is the table. For n = 0 the concatenation reads the dense layer's row: the contraction
  Σ_c energies(b,c) · W(c,s) plus the bias at s. For n ≥ 1 it reads token n - 1. That is the specification's
  function, case by case.
-/
import proofs.«139763_g44925357916747_cont_8to1_c_751_15_alg».proof.Proof.RefRead
import proofs.«139763_g44925357916747_cont_8to1_c_751_15_alg».proof.Proof.RefTake
import proofs.«139763_g44925357916747_cont_8to1_c_751_15_alg».proof.Proof.LibDense
import proofs.«139763_g44925357916747_cont_8to1_c_751_15_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Idealize.ShloMosaic Idealize.ShloMosaic.TcCoe Idealize.SL.Sem
open Idealize.ShloMosaic.ValueIdx Cert.ReferenceIdeal.RefStages

/-- The dense layer's row at (b, s): the contraction over the 64 input features, plus the bias at s. -/
theorem denseRow_apply (en : FVec Ideal S4096x64 .f32) (W : FVec Ideal S64x64 .f32) (bias : FVec Ideal S64 .f32)
    (b : Fin 4096) (s : Fin 64) :
    denseRow en W bias (ix2 b s) = Cert.PosEnc.dense en W b s + bias (ix1 s) := by
  have hd : Host.dotGeneral dot_S4096x64_S64x64_S4096x64_1_0_0_1_n_n none en W (ix2 b s)
      = ∑ k : Fin 64, en (ix2 b k) * W (ix2 k s) :=
    Cert.LibDense.hostDot_ix2_apply dot_S4096x64_S64x64_S4096x64_1_0_0_1_n_n rfl rfl
      (fun _ _ => rfl) (fun _ _ => rfl) (fun _ _ => rfl) (fun _ _ => rfl) none en W b s
  have hb : broadcastInDim S4096x64 ![0, 1] Gen.bcast_S1x64_S4096x64_0_1
      (broadcastInDim S1x64 ![1] Gen.bcast_S64_S1x64_1 bias) (ix2 b s) = bias (ix1 s) := by
    refine (broadcastInDim_apply _ _ _ (ix2 b s) (ix2 (0 : Fin 1) s) fun a => ?_).trans ?_
    · match a with
      | ⟨0, _⟩ => rfl
      | ⟨1, _⟩ => rfl
    · refine broadcastInDim_apply _ _ bias (ix2 (0 : Fin 1) s) (ix1 s) fun a => ?_
      match a with
      | ⟨0, _⟩ => rfl
  unfold denseRow
  refine (addf_apply _ _ (ix2 b s)).trans ?_
  rw [hd, hb]
  rfl

/-- The two-piece concatenation along the position axis, read at position 0: the first piece's one row. The
    pieces are any two arrays of these shapes. -/
theorem concat_zero {α : Type} (x₁ : S4096x1x64.Idx → α) (x₂ : S4096x199x64.Idx → α) (b : Fin 4096) (n : Fin 200) (s : Fin 64)
    (h0 : n.val = 0) :
    concatenate S4096x200x64 1 [⟨S4096x1x64, x₁⟩, ⟨S4096x199x64, x₂⟩] Gen.concatenates_S4096x1x64_S4096x199x64_S4096x200x64_d1
      (ix3 b n s) = x₁ (ix3 b (0 : Fin 1) s) := by
  refine concatenate_pair_apply_left (t := S4096x200x64) (s₁ := S4096x1x64) (s₂ := S4096x199x64) (1 : Fin 3) x₁ x₂
      Gen.concatenates_S4096x1x64_S4096x199x64_S4096x200x64_d1 (ix3 b n s) rfl (ix3 b (0 : Fin 1) s) fun a => ?_
  match a with
  | ⟨0, _⟩ => rfl
  | ⟨1, _⟩ => exact h0.symm
  | ⟨2, _⟩ => rfl

/-- The same concatenation read at a position n ≥ 1: the second piece at row n - 1. -/
theorem concat_succ {α : Type} (x₁ : S4096x1x64.Idx → α) (x₂ : S4096x199x64.Idx → α) (b : Fin 4096) (n : Fin 200) (s : Fin 64)
    (h0 : ¬ n.val = 0) (hlt : n.val - 1 < 199) :
    concatenate S4096x200x64 1 [⟨S4096x1x64, x₁⟩, ⟨S4096x199x64, x₂⟩] Gen.concatenates_S4096x1x64_S4096x199x64_S4096x200x64_d1
      (ix3 b n s) = x₂ (ix3 b (⟨n.val - 1, hlt⟩ : Fin 199) s) := by
  refine concatenate_pair_apply_right (t := S4096x200x64) (s₁ := S4096x1x64) (s₂ := S4096x199x64) (1 : Fin 3) x₁ x₂
      Gen.concatenates_S4096x1x64_S4096x199x64_S4096x200x64_d1 (ix3 b n s) rfl rfl
      (ix3 b (⟨n.val - 1, hlt⟩ : Fin 199) s) (fun a ha => ?_) ?_
  · match a, ha with
    | ⟨0, _⟩, _ => rfl
    | ⟨1, _⟩, ha => exact absurd rfl ha
    | ⟨2, _⟩, _ => rfl
  · show (n.val - 1) + 1 = n.val
    omega

/-- The looked-up table, repeated over the batch, at (b, n, s): the table at (n, s). -/
theorem table_apply (emb : FVec Ideal S200x64 .f32) (b : Fin 4096) (n : Fin 200) (s : Fin 64) :
    broadcastInDim S4096x200x64 ![0, 1, 2] Gen.bcast_S1x200x64_S4096x200x64_0_1_2
      (broadcastInDim S1x200x64 ![1, 2] Gen.bcast_S200x64_S1x200x64_1_2 (lookup emb)) (ix3 b n s) = emb (ix2 n s) := by
  rw [RefTake.lookup_eq]
  refine (broadcastInDim_apply _ _ _ (ix3 b n s) (ix3 (0 : Fin 1) n s) fun a => ?_).trans ?_
  · match a with
    | ⟨0, _⟩ => rfl
    | ⟨1, _⟩ => rfl
    | ⟨2, _⟩ => rfl
  · refine broadcastInDim_apply _ _ emb (ix3 (0 : Fin 1) n s) (ix2 n s) fun a => ?_
    match a with
    | ⟨0, _⟩ => rfl
    | ⟨1, _⟩ => rfl

/-- The dense row as the one-row first piece, at (b, 0, s). -/
theorem firstPiece_apply (en : FVec Ideal S4096x64 .f32) (W : FVec Ideal S64x64 .f32) (bias : FVec Ideal S64 .f32)
    (b : Fin 4096) (s : Fin 64) :
    broadcastInDim S4096x1x64 ![0, 2] Gen.bcast_S4096x64_S4096x1x64_0_2 (denseRow en W bias) (ix3 b (0 : Fin 1) s)
      = Cert.PosEnc.dense en W b s + bias (ix1 s) := by
  refine (broadcastInDim_apply _ _ (denseRow en W bias) (ix3 b (0 : Fin 1) s) (ix2 b s) fun a => ?_).trans
    (denseRow_apply en W bias b s)
  match a with
  | ⟨0, _⟩ => rfl
  | ⟨1, _⟩ => rfl

/-- The reference's value is the encoded sequence. -/
theorem out_eq_encoded (tok : FVec Ideal S4096x199x64 .f32) (en : FVec Ideal S4096x64 .f32) (W : FVec Ideal S64x64 .f32)
    (bias : FVec Ideal S64 .f32) (emb : FVec Ideal S200x64 .f32) :
    out tok en W bias emb = Cert.PosEnc.encoded tok en W bias emb := by
  funext i
  obtain ⟨b, n, s, rfl⟩ : ∃ (b : Fin 4096) (n : Fin 200) (s : Fin 64), i = ix3 b n s := ⟨i 0, i 1, i 2, eq_ix3 i⟩
  rw [Cert.PosEnc.encoded_ix3]
  unfold out
  refine (addf_apply _ _ (ix3 b n s)).trans ?_
  rw [table_apply]
  by_cases h0 : n.val = 0
  · -- position 0: the first piece, the dense row
    rw [Cert.PosEnc.encodedAt_zero tok en W bias emb b n s h0, concat_zero _ _ b n s h0, firstPiece_apply]
    have hn : n = 0 := Fin.ext h0
    rw [hn]
  · -- a later position: the second piece, token n - 1
    have hn := n.isLt
    rw [Cert.PosEnc.encodedAt_succ tok en W bias emb b n s h0, concat_succ _ _ b n s h0 (by omega)]

/-- Every weakly fair execution of the reference terminates with the result buffer at the encoded sequence of the
    arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10)
        = Cert.PosEnc.encoded (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (out_eq_encoded _ _ _ _ _), (h c).2⟩) (RefRead.run_out m ρ)

end Cert.ReferenceIdeal.RefValue

end
-- ==== Proof.lean ====
/-
  The certificate: a kernel that adds a position table to a sequence whose first entry is a dense layer of the
  energies, against its reference.

  Both programs compute, for batch entry b, position n and feature s,
    n = 0:  Σ_c energies(b,c) · W(c,s) + bias(s) + emb(0,s)        n ≥ 1:  tokens(b,n-1,s) + emb(n,s)
  (`Cert.PosEnc.encoded`). The reference computes it in that form (its table lookup at the positions 0 … 199 is the
  identity: every position is in range). The kernel works on the transposed arrangement over an 8 × 4 grid, adds
  the bias to the table's row 0 beforehand and multiplies in the other order; on the extended reals the product
  commutes and the sum is associative, so the entries agree without any finiteness condition, and the precondition
  is never opened. The three frames are the generated frame runs and the reference's run with its result dropped;
  the idealization rewrote nothing.
-/
import proofs.«139763_g44925357916747_cont_8to1_c_751_15_alg».proof.Defs
import proofs.«139763_g44925357916747_cont_8to1_c_751_15_alg».proof.Proof.Gen.Kernel
import proofs.«139763_g44925357916747_cont_8to1_c_751_15_alg».proof.Proof.Gen.Kernel.Frame
import proofs.«139763_g44925357916747_cont_8to1_c_751_15_alg».proof.Proof.Gen.KernelIdeal
import proofs.«139763_g44925357916747_cont_8to1_c_751_15_alg».proof.Proof.Gen.KernelIdeal.Frame
import proofs.«139763_g44925357916747_cont_8to1_c_751_15_alg».proof.Proof.Gen.ReferenceIdeal
import proofs.«139763_g44925357916747_cont_8to1_c_751_15_alg».proof.Proof.Gen.Pre_finite_inputs
import proofs.«139763_g44925357916747_cont_8to1_c_751_15_alg».proof.Proof.KFinal
import proofs.«139763_g44925357916747_cont_8to1_c_751_15_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame run. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Run from memories agreeing on the arguments, both programs end with the specification's array of those
    arguments. -/
theorem algebraic : Cert.algebraic_KernelIdeal_ReferenceIdeal := by
  intro m ρ m' ρ' _ hagree
  refine ⟨fun c => Cert.PosEnc.encoded (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KValue.run m ρ, ?_⟩
  refine (θ_run Cert.ReferenceIdeal.defs _ _).mono (fun _ h c => ⟨?_, (h c).2⟩)
    (Cert.ReferenceIdeal.RefValue.run m' ρ')
  rw [(h c).1, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
